-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x64 : Shape := ⟨3, ![4, 4096, 64]⟩
abbrev S64x256 : Shape := ⟨2, ![64, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  main_v23

def fn {F : FTy → Type} [FloatOps F] (main_arg0 : FVec F S4x4096x256 .f32) (main_arg1 : FVec F S4x4096x256 .f32) (main_arg2 : FVec F S4x4096x64 .f32) (main_arg3 : FVec F S64x256 .f32) (main_arg4 : FVec F S64x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S4x4096x256 : Shape := ⟨3, ![4, 4096, 256]⟩
abbrev S4x4096x64 : Shape := ⟨3, ![4, 4096, 64]⟩
abbrev S64x256 : Shape := ⟨2, ![64, 256]⟩
abbrev S1x512x256 : Shape := ⟨3, ![1, 512, 256]⟩
abbrev S1x4096x256 : Shape := ⟨3, ![1, 4096, 256]⟩
abbrev S1x4096x64 : Shape := ⟨3, ![1, 4096, 64]⟩
abbrev S1x512x64 : Shape := ⟨3, ![1, 512, 64]⟩
abbrev S4096x64 : Shape := ⟨2, ![4096, 64]⟩
abbrev S4096x256 : Shape := ⟨2, ![4096, 256]⟩
abbrev S512x256 : Shape := ⟨2, ![512, 256]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x64, .f32⟩
  | .hbm, ⟨3, _⟩ => ⟨S64x256, .f32⟩
  | .hbm, ⟨4, _⟩ => ⟨S64x256, .f32⟩
  | .hbm, ⟨5, _⟩ => ⟨S4x4096x64, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x64, .f32⟩
  | .local _ .vmem, ⟨5, _⟩ => ⟨S1x4096x64, .f32⟩
  | .local _ .vmem, ⟨6, _⟩ => ⟨S64x256, .f32⟩
  | .local _ .vmem, ⟨7, _⟩ => ⟨S64x256, .f32⟩
  | .local _ .vmem, ⟨8, _⟩ => ⟨S1x512x64, .f32⟩
  | .local _ .vmem, ⟨9, _⟩ => ⟨S1x512x64, .f32⟩
  | .local _ .vmem, ⟨10, _⟩ => ⟨S4096x64, .bf16⟩
  | .local _ .vmem, ⟨11, _⟩ => ⟨S4096x64, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  iota_S512x4096_d1_w32 : S512x4096.Iotas .tc 32 [1]
  reduces_S512x4096_S512 : S512x4096.Reduces [1] S512
  shapeCasts_S512_S512x1 : S512.ShapeCasts S512x1
  broadcasts_S512x1_S512x4096 : S512x1.Broadcasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S4096x256_S64x256_S4096x64_1_1_0_0_n_n_wf : DotDims.WF S4096x256 S64x256 S4096x64 [1] [1] [0] [0] [] []
  dot_S512x256_S64x256_S512x64_1_1_0_0_n_n_wf : DotDims.WF S512x256 S64x256 S512x64 [1] [1] [0] [0] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .f32 = 32 ∨ (Rect.block (s := S4x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .f32 = 32 ∨ (Rect.block (s := S4x4096x64) S1x4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S4x4096x64.size a
  hwx0_5 : ∀ i : grid0.Coords, EltTy.bits .f32 = 32 ∨ (Rect.block (s := S4x4096x64) S1x512x64.size (cc0_transform_5 i) (hinb0_5 i)).WholeWords (EltTy.packing .f32)

variable [Facts₀]

def dot_S4096x256_S64x256_S4096x64_1_1_0_0_n_n : DotDims S4096x256 S64x256 S4096x64 where
  lhsContracting := [1]
  rhsContracting := [1]
  lhsNonContracting := [0]
  rhsNonContracting := [0]
  lhsBatch := []
  rhsBatch := []
  wf := dot_S4096x256_S64x256_S4096x64_1_1_0_0_n_n_wf
def dot_S512x256_S64x256_S512x64_1_1_0_0_n_n : DotDims S512x256 S64x256 S512x64 where
  lhsContracting := [1]
  rhsContracting := [1]
  lhsNonContracting := [0]
  rhsNonContracting := [0]
  lhsBatch := []
  rhsBatch := []
  wf := dot_S512x256_S64x256_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096x64 : Shape := ⟨3, ![4, 4096, 64]⟩
abbrev S64x256 : Shape := ⟨2, ![64, 256]⟩
abbrev S_ : Shape := ⟨0, ![]⟩
abbrev S4x4096x4096 : Shape := ⟨3, ![4, 4096, 4096]⟩
abbrev S1 : Shape := ⟨1, ![1]⟩
abbrev S4x4096 : Shape := ⟨2, ![4, 4096]⟩
abbrev S4x4096x1 : Shape := ⟨3, ![4, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x64, .f32⟩
  | .hbm, ⟨3, _⟩ => ⟨S64x256, .f32⟩
  | .hbm, ⟨4, _⟩ => ⟨S64x256, .f32⟩
  | .hbm, ⟨5, _⟩ => ⟨S4x4096x64, .f32⟩
  | .hbm, ⟨6, _⟩ => ⟨S_, .f32⟩
  | .hbm, ⟨7, _⟩ => ⟨S4x4096x64, .f32⟩
  | .hbm, ⟨8, _⟩ => ⟨S4x4096x64, .f32⟩
  | .hbm, ⟨9, _⟩ => ⟨S4x4096x64, .f32⟩
  | .hbm, ⟨10, _⟩ => ⟨S_, .f32⟩
  | .hbm, ⟨11, _⟩ => ⟨S4x4096x64, .f32⟩
  | .hbm, ⟨12, _⟩ => ⟨S4x4096x64, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S4x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x64, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S4x4096x64 : S_.BroadcastsInDim S4x4096x64 (![] : Fin 0 → Fin S4x4096x64.rank)
  bcast_S_S4x4096x4096 : S_.BroadcastsInDim S4x4096x4096 (![] : Fin 0 → Fin S4x4096x4096.rank)
  bcast_S_S1 : S_.BroadcastsInDim S1 (![] : Fin 0 → Fin S1.rank)
  bcast_S_S4x4096 : S_.BroadcastsInDim S4x4096 (![] : Fin 0 → Fin S4x4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S64x256_S4x4096x64_2_1_01_0_n_n_wf : DotDims.WF S4x4096x256 S64x256 S4x4096x64 [2] [1] [0, 1] [0] [] []
  dot_S4x4096x64_S4x4096x64_S4x4096x4096_2_2_1_1_0_0_wf : DotDims.WF S4x4096x64 S4x4096x64 S4x4096x4096 [2] [2] [1] [1] [0] [0]
  scatter_S4x4096x4096_S1_S4x4096_01_2_2_0_wf : ScatterDims.WF S4x4096x4096 S1 S4x4096 [0, 1] [2] [2] 0
  dot_S4x4096x4096_S4x4096x64_S4x4096x64_2_1_1_2_0_0_wf : DotDims.WF S4x4096x4096 S4x4096x64 S4x4096x64 [2] [1] [1] [2] [0] [0]

variable [Facts₀]

def dot_S4x4096x256_S64x256_S4x4096x64_2_1_01_0_n_n : DotDims S4x4096x256 S64x256 S4x4096x64 where
  lhsContracting := [2]
  rhsContracting := [1]
  lhsNonContracting := [0, 1]
  rhsNonContracting := [0]
  lhsBatch := []
  rhsBatch := []
  wf := dot_S4x4096x256_S64x256_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def scatter_S4x4096x4096_S1_S4x4096_01_2_2_0 : ScatterDims S4x4096x4096 S1 S4x4096 where
  updateWindowDims := [0, 1]
  insertedWindowDims := [2]
  scatterDimsToOperandDims := [2]
  indexVectorDim := 0
  wf := scatter_S4x4096x4096_S1_S4x4096_01_2_2_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Pieces.lean ====
/-
  What the kernel body leaves behind at one grid point, as values.

  At the first point of a batch the body projects the whole key block and stores it in the first carried buffer,
  stores the whole value block in the second, and then computes the attention rows of the point's query block from
  those two buffers as it just stored them. At every other point of the batch it stores nothing into the two
  carried buffers and computes the attention rows from what they already hold.

  The generated runs record what each buffer ends with as the list of stores the run found. Here each list is
  read back as one value: every buffer is written by a single store that covers it, so what it holds is that
  store's value, and a load that follows a covering store reads that value.
-/
import proofs.«129011_j15599321219155_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a store or load through a whole buffer of two axes. -/
theorem hz2 : (![0, 0] : Fin 2 → Nat) = fun _ => 0 := funext fun a => by fin_cases a <;> rfl
/-- The zero offsets of a store or load through a whole buffer of three axes. -/
theorem hz3 : (![0, 0, 0] : Fin 3 → Nat) = fun _ => 0 := funext fun a => by fin_cases a <;> rfl

/-- At a batch's first point the first carried buffer ends holding the clipped projection of the key block. -/
theorem keys_first (c : Dev nD) (i : grid0.Coords) (arg2 : Memref sig .tc .vmem S1x512x256 .f32) (harg2 : arg2.IsWhole) (arg3 : Memref sig .tc .vmem S1x4096x256 .f32) (harg3 : arg3.IsWhole) (arg4 : Memref sig .tc .vmem S1x4096x64 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S1x512x64 .f32) (harg7 : arg7.IsWhole) (arg8 : Memref sig .tc .vmem S4096x64 .bf16) (harg8 : arg8.IsWhole) (arg9 : Memref sig .tc .vmem S4096x64 .bf16) (harg9 : arg9.IsWhole) (hc0 : cond0_0 i) (x0 : Vec F S1x512x256 .f32) (x1 : Vec F S1x4096x256 .f32) (x2 : Vec F S1x4096x64 .f32) (x3 : Vec F S64x256 .f32) (x4 : Vec F S64x256 .f32) :
    sout0_A_0 c i arg2 harg2 arg3 harg3 arg4 harg4 arg5 harg5 arg6 harg6 arg7 harg7 arg8 harg8 arg9 harg9 hc0 x0 x1 x2 x3 x4 = k0_pay1 x1 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg6.read_unread, View.ld_unit_zero (S := S1x4096x256) hz3,
    View.ld_unit_zero (S := S64x256) hz2]

/-- At a batch's first point the second carried buffer ends holding the value block. -/
theorem values_first (c : Dev nD) (i : grid0.Coords) (arg2 : Memref sig .tc .vmem S1x512x256 .f32) (harg2 : arg2.IsWhole) (arg3 : Memref sig .tc .vmem S1x4096x256 .f32) (harg3 : arg3.IsWhole) (arg4 : Memref sig .tc .vmem S1x4096x64 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S1x512x64 .f32) (harg7 : arg7.IsWhole) (arg8 : Memref sig .tc .vmem S4096x64 .bf16) (harg8 : arg8.IsWhole) (arg9 : Memref sig .tc .vmem S4096x64 .bf16) (harg9 : arg9.IsWhole) (hc0 : cond0_0 i) (x0 : Vec F S1x512x256 .f32) (x1 : Vec F S1x4096x256 .f32) (x2 : Vec F S1x4096x64 .f32) (x3 : Vec F S64x256 .f32) (x4 : Vec F S64x256 .f32) :
    sout0_A_1 c i arg2 harg2 arg3 harg3 arg4 harg4 arg5 harg5 arg6 harg6 arg7 harg7 arg8 harg8 arg9 harg9 hc0 x0 x1 x2 x3 x4 = k0_pay2 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg4.read_unread, View.ld_unit_zero (S := S1x4096x64) hz3]

/-- At a batch's first point the output block is the attention rows of the query block against the projected keys
    and the values the body has just stored. -/
theorem rows_first (c : Dev nD) (i : grid0.Coords) (arg2 : Memref sig .tc .vmem S1x512x256 .f32) (harg2 : arg2.IsWhole) (arg3 : Memref sig .tc .vmem S1x4096x256 .f32) (harg3 : arg3.IsWhole) (arg4 : Memref sig .tc .vmem S1x4096x64 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S1x512x64 .f32) (harg7 : arg7.IsWhole) (arg8 : Memref sig .tc .vmem S4096x64 .bf16) (harg8 : arg8.IsWhole) (arg9 : Memref sig .tc .vmem S4096x64 .bf16) (harg9 : arg9.IsWhole) (hc0 : cond0_0 i) (x0 : Vec F S1x512x256 .f32) (x1 : Vec F S1x4096x256 .f32) (x2 : Vec F S1x4096x64 .f32) (x3 : Vec F S64x256 .f32) (x4 : Vec F S64x256 .f32) :
    out0_A_5 c i arg2 harg2 arg3 harg3 arg4 harg4 arg5 harg5 arg6 harg6 arg7 harg7 arg8 harg8 arg9 harg9 hc0 x0 x1 x2 x3 x4 = k0_pay3 x0 x3 (k0_pay1 x1 x4) (k0_pay2 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  rw [View.readCov_unit_zero (S := S4096x64) _ hz2, View.readCov_unit_zero (S := S4096x64) _ hz2]
  simp only [View.readAt_eq_ld, harg2.read_unread, harg3.read_unread, harg4.read_unread, harg5.read_unread, harg6.read_unread,
    View.ld_unit_zero (S := S1x512x256) hz3, View.ld_unit_zero (S := S1x4096x256) hz3, View.ld_unit_zero (S := S1x4096x64) hz3,
    View.ld_unit_zero (S := S64x256) hz2]

/-- At any other point the output block is the attention rows of the query block against what the two carried
    buffers hold. -/
theorem rows_later (c : Dev nD) (i : grid0.Coords) (arg2 : Memref sig .tc .vmem S1x512x256 .f32) (harg2 : arg2.IsWhole) (arg3 : Memref sig .tc .vmem S1x4096x256 .f32) (harg3 : arg3.IsWhole) (arg4 : Memref sig .tc .vmem S1x4096x64 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S1x512x64 .f32) (harg7 : arg7.IsWhole) (arg8 : Memref sig .tc .vmem S4096x64 .bf16) (harg8 : arg8.IsWhole) (arg9 : Memref sig .tc .vmem S4096x64 .bf16) (harg9 : arg9.IsWhole) (hc0 : ¬cond0_0 i) (x0 : Vec F S1x512x256 .f32) (x1 : Vec F S1x4096x256 .f32) (x2 : Vec F S1x4096x64 .f32) (x3 : Vec F S64x256 .f32) (x4 : Vec F S64x256 .f32) (xs0 xs1 : Vec F S4096x64 .bf16) :
    out0_B_5 c i arg2 harg2 arg3 harg3 arg4 harg4 arg5 harg5 arg6 harg6 arg7 harg7 arg8 harg8 arg9 harg9 hc0 x0 x1 x2 x3 x4 xs0 xs1 = k0_pay3 x0 x3 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg5.read_unread, harg8.read_unread, harg9.read_unread,
    View.ld_unit_zero (S := S1x512x256) hz3, View.ld_unit_zero (S := S64x256) hz2, View.ld_unit_zero (S := S4096x64) hz2]

end Cert.KernelIdeal.Pieces

end
-- ==== Proof.Carried.lean ====
/-
  What the two carried buffers and the output block hold after each grid point, by induction along the grid.

  The grid runs through the four batches in turn, eight points each: point `n` belongs to batch `n / 8` and handles
  query rows `512 * (n % 8)` onwards. The key and value blocks depend on the batch only. At the first point of a
  batch both carried buffers are rewritten from the batch's key and value blocks; at the seven points after it they
  are left alone. So after ANY point the first buffer holds the clipped projection of the key block, and the
  second the value block, of the first point of the batch the point belongs to, `8 * (n / 8)`; and the output
  block of the point is the attention rows of its own query block against those two.
-/
import proofs.«129011_j15599321219155_2_alg».proof.Proof.Pieces

set_option maxRecDepth 16384

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The first point of the batch that point `n` belongs to. -/
def first (n : ℕ) (h : n < cfg0.N) : Fin cfg0.N :=
  ⟨8 * (n / 8), lt_of_le_of_lt (by have := Nat.div_add_mod n 8; omega) h⟩

theorem first_val (n : ℕ) (h : n < cfg0.N) : (first n h).val = 8 * (n / 8) := rfl

/-- A first point of a batch is its own batch's first point. -/
theorem first_self (n : ℕ) (h : n < cfg0.N) (h0 : n % 8 = 0) : first n h = ⟨n, h⟩ :=
  Fin.ext (by show 8 * (n / 8) = n; omega)

/-- A point that is not the first of its batch shares its batch with the point before it. -/
theorem first_pred (n : ℕ) (h : n + 1 < cfg0.N) (h0 : ¬(n + 1) % 8 = 0) :
    first (n + 1) h = first n (Nat.lt_of_succ_lt h) :=
  Fin.ext (by show 8 * ((n + 1) / 8) = 8 * (n / 8); omega)

/-- After any point the first carried buffer holds the clipped projection of the key block of the batch. -/
theorem keys_after (c : Dev nD) : ∀ (n : ℕ) (h : n < cfg0.N),
    (outsAt0 m c n h).2.1 = k0_pay1 (iblk m c 1 (first n h)) (iblk m c 4 (first n h))
  | 0, h => by
    rw [outsAt0_A m c ⟨0, h⟩ rfl]
    dsimp only
    refine (Pieces.keys_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
    rw [first_self 0 h rfl]
  | n + 1, h => by
    by_cases h0 : (n + 1) % 8 = 0
    · rw [outsAt0_A m c ⟨n + 1, h⟩ h0]
      dsimp only
      refine (Pieces.keys_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans ?_
      rw [first_self (n + 1) h h0]
    · rw [outsAt0_B m c ⟨n + 1, h⟩ h0]
      dsimp only
      unfold sout0_B_0
      rw [first_pred n h h0]
      exact keys_after c n _

/-- After any point the second carried buffer holds the value block of the batch. -/
theorem values_after (c : Dev nD) : ∀ (n : ℕ) (h : n < cfg0.N),
    (outsAt0 m c n h).2.2 = k0_pay2 (iblk m c 2 (first n h))
  | 0, h => by
    rw [outsAt0_A m c ⟨0, h⟩ rfl]
    dsimp only
    refine (Pieces.values_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
    rw [first_self 0 h rfl]
  | n + 1, h => by
    by_cases h0 : (n + 1) % 8 = 0
    · rw [outsAt0_A m c ⟨n + 1, h⟩ h0]
      dsimp only
      refine (Pieces.values_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans ?_
      rw [first_self (n + 1) h h0]
    · rw [outsAt0_B m c ⟨n + 1, h⟩ h0]
      dsimp only
      unfold sout0_B_1
      rw [first_pred n h h0]
      exact values_after c n _

/-- After any point the output block holds the attention rows of the point's query block against the projected keys
    and the values of its batch. -/
theorem rows_after (c : Dev nD) (t : Fin cfg0.N) :
    (outsAt0 m c t.val t.isLt).1
      = k0_pay3 (iblk m c 0 t) (iblk m c 3 t)
          (k0_pay1 (iblk m c 1 (first t.val t.isLt)) (iblk m c 4 (first t.val t.isLt)))
          (k0_pay2 (iblk m c 2 (first t.val t.isLt))) := by
  by_cases h0 : t.val % 8 = 0
  · rw [outsAt0_A m c t h0]
    dsimp only
    refine (Pieces.rows_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans ?_
    rw [first_self t.val t.isLt h0]
  · rw [outsAt0_B m c t h0]
    dsimp only
    refine (Pieces.rows_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) _ _).trans ?_
    rw [keys_after m c, values_after m c]
    have e : first (t.val - 1) (Nat.lt_of_le_of_lt (Nat.sub_le _ _) t.isLt) = first t.val t.isLt :=
      Fin.ext (by show 8 * ((t.val - 1) / 8) = 8 * (t.val / 8); omega)
    rw [e]

end Cert.KernelIdeal.Carried

end
-- ==== Proof.BlockReads.lean ====
/-
  Reading the kernel's blocks off the whole arrays, and which output rows each grid point covers.

  Grid point `t` belongs to batch `t / 8` and handles the query tile `t % 8`, rows `512 * (t % 8)` to
  `512 * (t % 8) + 511`. Its query block is those rows of the batch's queries, its key and value blocks are the
  whole batch's keys and values, its weight blocks are the whole weight tables, and it writes back those rows of the
  batch's output. Every row of the output is covered by exactly the point `8 * b + r / 512` of its batch `b` and
  row `r`.
-/
import proofs.«129011_j15599321219155_2_alg».proof.Proof.Gen.KernelIdeal.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the 32 grid points: the query and output windows move with the batch `t / 8` and the
    query tile `t % 8`, the key and value windows with the batch only, the weight windows not at all. -/
theorem index_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 8 ∧ win0_5.index t (1 : Fin 3) = t.val % 8 ∧ win0_5.index t (2 : Fin 3) = 0 :=
  (by decide +kernel : ∀ t : Fin grid0.N, _)

/-- Row `r` of point `t`'s query block is row `512 * (t % 8) + r` of batch `t / 8` of the queries. -/
theorem query_block (c : Dev nD) (t : Fin cfg0.N) (y : S1x512x256.Idx) (b : Fin 4) (R : Fin 4096)
    (hb : b.val = t.val / 8) (hR : R.val = 512 * (t.val % 8) + (y 1).val) :
    iblk m c 0 t y = V m c main_arg0 (ix3 b R (y 2)) := by
  obtain ⟨e0, e1, e2, -⟩ := index_facts t
  show V m c main_arg0 (((cfg0.win 0).blk t).view.emb y) = V m c main_arg0 (ix3 b R (y 2))
  refine congrArg _ (funext fun a => Fin.ext ?_)
  have h0 : (y 0).val < 1 := (y 0).isLt
  match a with
  | ⟨0, _⟩ => show win0_0.index t (0 : Fin 3) * 1 + 1 * (y 0).val = b.val; omega
  | ⟨1, _⟩ => show win0_0.index t (1 : Fin 3) * 512 + 1 * (y 1).val = R.val; omega
  | ⟨2, _⟩ => show win0_0.index t (2 : Fin 3) * 256 + 1 * (y 2).val = (y 2).val; omega

/-- Point `t`'s key block is batch `t / 8` of the keys. -/
theorem key_block (c : Dev nD) (t : Fin cfg0.N) (y : S1x4096x256.Idx) (b : Fin 4) (hb : b.val = t.val / 8) :
    iblk m c 1 t y = V m c main_arg1 (ix3 b (y 1) (y 2)) := by
  obtain ⟨-, -, -, e0, e1, e2, -⟩ := index_facts t
  show V m c main_arg1 (((cfg0.win 1).blk t).view.emb y) = V m c main_arg1 (ix3 b (y 1) (y 2))
  refine congrArg _ (funext fun a => Fin.ext ?_)
  have h0 : (y 0).val < 1 := (y 0).isLt
  match a with
  | ⟨0, _⟩ => show win0_1.index t (0 : Fin 3) * 1 + 1 * (y 0).val = b.val; omega
  | ⟨1, _⟩ => show win0_1.index t (1 : Fin 3) * 4096 + 1 * (y 1).val = (y 1).val; omega
  | ⟨2, _⟩ => show win0_1.index t (2 : Fin 3) * 256 + 1 * (y 2).val = (y 2).val; omega

/-- Point `t`'s value block is batch `t / 8` of the values. -/
theorem value_block (c : Dev nD) (t : Fin cfg0.N) (y : S1x4096x64.Idx) (b : Fin 4) (hb : b.val = t.val / 8) :
    iblk m c 2 t y = V m c main_arg2 (ix3 b (y 1) (y 2)) := by
  obtain ⟨-, -, -, -, -, -, e0, e1, e2, -⟩ := index_facts t
  show V m c main_arg2 (((cfg0.win 2).blk t).view.emb y) = V m c main_arg2 (ix3 b (y 1) (y 2))
  refine congrArg _ (funext fun a => Fin.ext ?_)
  have h0 : (y 0).val < 1 := (y 0).isLt
  match a with
  | ⟨0, _⟩ => show win0_2.index t (0 : Fin 3) * 1 + 1 * (y 0).val = b.val; omega
  | ⟨1, _⟩ => show win0_2.index t (1 : Fin 3) * 4096 + 1 * (y 1).val = (y 1).val; omega
  | ⟨2, _⟩ => show win0_2.index t (2 : Fin 3) * 64 + 1 * (y 2).val = (y 2).val; omega

/-- Every point's query-weight block is the whole query-weight table. -/
theorem qweight_block (c : Dev nD) (t : Fin cfg0.N) (y : S64x256.Idx) :
    iblk m c 3 t y = V m c main_arg3 y := by
  obtain ⟨-, -, -, -, -, -, -, -, -, e0, e1, -⟩ := index_facts t
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 256 + 1 * (y 1).val = (y 1).val; omega

/-- Every point's key-weight block is the whole key-weight table. -/
theorem kweight_block (c : Dev nD) (t : Fin cfg0.N) (y : S64x256.Idx) :
    iblk m c 4 t y = V m c main_arg4 y := by
  obtain ⟨-, -, -, -, -, -, -, -, -, -, -, e0, e1, -⟩ := index_facts t
  show V m c main_arg4 (((cfg0.win 4).blk t).view.emb y) = V m c main_arg4 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 256 + 1 * (y 1).val = (y 1).val; omega

/-- Where entry `y` of point `t`'s output block lands in the output array: batch `t / 8`, row
    `512 * (t % 8) + y 1`, the same coordinate. -/
theorem out_emb (t : Fin cfg0.N) (y : S1x512x64.Idx) :
    ((((cfg0.win 5).blk t).view.emb y) 0).val = t.val / 8
    ∧ ((((cfg0.win 5).blk t).view.emb y) 1).val = 512 * (t.val % 8) + (y 1).val
    ∧ ((((cfg0.win 5).blk t).view.emb y) 2).val = (y 2).val := by
  obtain ⟨-, -, -, -, -, -, -, -, -, -, -, -, -, e0, e1, e2⟩ := index_facts t
  have h0 : (y 0).val < 1 := (y 0).isLt
  refine ⟨?_, ?_, ?_⟩
  · show win0_5.index t (0 : Fin 3) * 1 + 1 * (y 0).val = _; omega
  · show win0_5.index t (1 : Fin 3) * 512 + 1 * (y 1).val = _; omega
  · show win0_5.index t (2 : Fin 3) * 64 + 1 * (y 2).val = _; omega

/-- An index of the output array is in point `t`'s block iff each coordinate is in the block's range on its axis. -/
theorem mem_out_block (t : Fin cfg0.N) (i : S4x4096x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v0).slice (win0_5.rect t)).set ↔ _
  rw [View.set_slice_whole, Rect.mem_set_unit]
  exact Iff.rfl

/-- Every index of the output array lies in the block of a point that writes back: the point of its batch and its
    row's tile. -/
theorem covered (i : S4x4096x64.Idx) :
    ∃ t : Fin cfg0.N, (cfg0.win 5).flush t = true ∧ i ∈ ((cfg0.win 5).blk t).view.set := by
  have hN : cfg0.N = 32 := N_0
  have h0 : (i 0).val < 4 := (i 0).isLt
  have h1 : (i 1).val < 4096 := (i 1).isLt
  have h2 : (i 2).val < 64 := (i 2).isLt
  let t : Fin cfg0.N := ⟨8 * (i 0).val + (i 1).val / 512, by omega⟩
  have ht : t.val = 8 * (i 0).val + (i 1).val / 512 := rfl
  obtain ⟨-, -, -, -, -, -, -, -, -, -, -, -, -, e0, e1, e2⟩ := index_facts t
  refine ⟨t, flush0_5 t, ?_⟩
  rw [mem_out_block]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 64 ≤ (i 2).val ∧ (i 2).val < win0_5.index t (2 : Fin 3) * 64 + 64
    omega

end Cert.KernelIdeal.Blocks

end
-- ==== Proof.Spec.lean ====
/-
  The function both programs compute, over the extended reals, written once and index by index.

  For a batch `b` the keys and queries are first projected and clipped at zero: a row `x` of 256 entries
  against a weight table `w` of 64 rows gives `proj x w j = max (∑ m, x m * w j m) 0`. A query row's score
  against key `c` is the inner product of the two projected rows times one eighth (the reciprocal of the square
  root of the 64 projected coordinates), except that the score against key 0 is replaced by the large
  negative word `negBig`. The row is then normalised: with `M` the largest score of the row, each key gets the
  weight `exp (s c - M) / ∑ c', exp (s c' - M)`, and the result is the weighted sum of the value rows.

  Nothing here mentions a program: the kernel's blocks and the reference's whole arrays are both shown to be
  this function of the argument arrays.
-/
import Idealize.ShloMosaic.PureOps.Ideal
import Idealize.ShloMosaic.PureOps.Ideal.Laws
import Idealize.ShloMosaic.Lib.ValueIdx

noncomputable section

namespace Cert.Spec

open Idealize.ShloMosaic

/-- The f32 word of zero, the floor of the clipped projections. -/
abbrev zeroW : EReal := Ideal.ofBits .f32 0x00000000#32
/-- The f32 word of one eighth, the scale of the scores. -/
abbrev eighthW : EReal := Ideal.ofBits .f32 0x3E000000#32
/-- The large negative f32 word written over the score against key 0. -/
abbrev negBigW : EReal := Ideal.ofBits .f32 0xFE967699#32
/-- The f32 word of minus infinity, where the running maximum of a row starts. -/
abbrev negInfW : EReal := Ideal.ofBits .f32 0xFF800000#32

/-- A row of 256 entries projected onto weight row `j` and clipped at zero. -/
def proj (x : Fin 256 → EReal) (w : Fin 64 → Fin 256 → EReal) (j : Fin 64) : EReal :=
  max (∑ m : Fin 256, x m * w j m) zeroW

/-- The score of a projected query row against projected key `c`; key 0 is masked by the large negative word. -/
def score (qp : Fin 64 → EReal) (kp : Fin 4096 → Fin 64 → EReal) (c : Fin 4096) : EReal :=
  if c.val = 0 then negBigW else (∑ j : Fin 64, qp j * kp c j) * eighthW

/-- The largest score of a row: the fold of `max` from minus infinity over the 4096 keys. -/
def rowMax (s : Fin 4096 → EReal) : EReal :=
  (Finset.univ : Finset (Fin 4096)).fold max negInfW s

/-- The unnormalised weight of key `c` in a row of scores. -/
def weight (s : Fin 4096 → EReal) (c : Fin 4096) : EReal := Ideal.exp (s c - rowMax s)

/-- The normaliser of a row: the sum of its unnormalised weights. -/
def norm (s : Fin 4096 → EReal) : EReal := ∑ c : Fin 4096, weight s c

/-- The weighted sum of the value rows: coordinate `d` of the attended row. -/
def attend (s : Fin 4096 → EReal) (v : Fin 4096 → Fin 64 → EReal) (d : Fin 64) : EReal :=
  ∑ c : Fin 4096, Ideal.div (weight s c) (norm s) * v c d

/-- The whole computation at batch `b`, query row `r`, coordinate `d`. -/
def G (q k : Fin 4 → Fin 4096 → Fin 256 → EReal) (v : Fin 4 → Fin 4096 → Fin 64 → EReal)
    (wq wk : Fin 64 → Fin 256 → EReal) (b : Fin 4) (r : Fin 4096) (d : Fin 64) : EReal :=
  attend (score (proj (q b r) wq) (fun c => proj (k b c) wk)) (v b) d

end Cert.Spec

end
-- ==== Proof.LibDotRows.lean ====
/-
  A matrix product of rows against rows, read at an index, at the ideal instance.

  For a rank-2 contraction [a, K] · [b, K] → [a, b] in which axis 1 of the left operand is contracted against axis 1 of
  the right operand (the right operand is used transposed; there is no batch axis), the product accumulated into the
  zero splat is, at the result index (p, q), the inner product of row p of the left operand with row q of the right
  one: the sum over k < K of lhs (p, k) · rhs (q, k). The contracted shape has one axis of extent K, so the sum over
  its indices is a sum over Fin K, and the operand indices the contraction names at (p, q) and k are (p, k) and (q, k).
  At the ideal instance a float of every format is an extended real, so the statement does not depend on the operands'
  formats. The four coordinate facts about a given dimension record (hl0, hl1, hr0, hr1) are taken as hypotheses: for a
  literal record each is a computation.
-/
import Idealize.ShloMosaic.PureOps.Ideal.Laws
import Idealize.ShloMosaic.Lib.ValueIdx

noncomputable section

namespace Cert.Lib.DotRows

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The product of an [a, K] operand of format φ₁ with a [b, K] operand of format φ₂ along their second axes,
    accumulated into the zero splat, is at (p, q) the sum over k < K of lhs (p, k) · rhs (q, k). -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (F := Ideal) (⟨2, ![a, b]⟩ : Shape) .f32 0x00000000#32) (ix2 p q)
      = ∑ k : Fin K, lhs (ix2 p k) * rhs (ix2 q k) :=
  (Ideal.matmul_constant_zero_apply D prec lhs rhs (ix2 p q)).trans
    (sum_contr D hr hs hl0 hl1 hr0 hr1 lhs rhs p q)

end Cert.Lib.DotRows

end
-- ==== Proof.PayProj.lean ====
/-
  The two projections the kernel stores or uses, and the value block it re-lays, read at an index.

  The key block [1, 4096, 256] is viewed as [4096, 256], multiplied row against row with the weight table [64, 256]
  into the zero splat, clipped at zero, and narrowed (the identity on extended reals): at (c, j) this is the clipped
  projection of key row c onto weight row j. The query block [1, 512, 256] goes the same way. The value block
  [1, 4096, 64] is only viewed as [4096, 64] and narrowed: at (c, d) it is the block's entry (0, c, d).
-/
import proofs.«129011_j15599321219155_2_alg».proof.Proof.Gen.KernelIdeal.Skeleton
import proofs.«129011_j15599321219155_2_alg».proof.Proof.Spec
import proofs.«129011_j15599321219155_2_alg».proof.Proof.LibDotRows
import Idealize.ShloMosaic.Lib.ValueLayout

noncomputable section

namespace Cert.KernelIdeal.Pay

open Cert.KernelIdeal Cert.KernelIdeal.Gen Cert.Spec Idealize.ShloMosaic Idealize.ShloMosaic.ValueIdx

/-! ## The two dimension records: which operand entries meet at a result index -/

/-- The key projection's product: the left operand is read at (row of the result, contracted position) … -/
theorem kdot_l0 (i : S4096x64.Idx) (q : dot_S4096x256_S64x256_S4096x64_1_1_0_0_n_n.contr.Idx) :
    (dot_S4096x256_S64x256_S4096x64_1_1_0_0_n_n.lhsIdx i q 0).val = (i 0).val := by
  unfold DotDims.lhsIdx
  rw [dif_neg (show ¬(0 : Fin S4096x256.rank) ∈ dot_S4096x256_S64x256_S4096x64_1_1_0_0_n_n.lhsBatch by decide),
    dif_pos (show (0 : Fin S4096x256.rank) ∈ dot_S4096x256_S64x256_S4096x64_1_1_0_0_n_n.lhsNonContracting by decide)]
  rfl
theorem kdot_l1 (i : S4096x64.Idx) (q : dot_S4096x256_S64x256_S4096x64_1_1_0_0_n_n.contr.Idx) :
    (dot_S4096x256_S64x256_S4096x64_1_1_0_0_n_n.lhsIdx i q 1).val = (q ⟨0, by decide⟩).val :=
  dot_S4096x256_S64x256_S4096x64_1_1_0_0_n_n.lhsIdx_val_of_single rfl i q
/-- … and the right operand at (column of the result, contracted position). -/
theorem kdot_r0 (i : S4096x64.Idx) (q : dot_S4096x256_S64x256_S4096x64_1_1_0_0_n_n.contr.Idx) :
    (dot_S4096x256_S64x256_S4096x64_1_1_0_0_n_n.rhsIdx i q 0).val = (i 1).val := by
  unfold DotDims.rhsIdx
  rw [dif_neg (show ¬(0 : Fin S64x256.rank) ∈ dot_S4096x256_S64x256_S4096x64_1_1_0_0_n_n.rhsBatch by decide),
    dif_pos (show (0 : Fin S64x256.rank) ∈ dot_S4096x256_S64x256_S4096x64_1_1_0_0_n_n.rhsNonContracting by decide)]
  rfl
theorem kdot_r1 (i : S4096x64.Idx) (q : dot_S4096x256_S64x256_S4096x64_1_1_0_0_n_n.contr.Idx) :
    (dot_S4096x256_S64x256_S4096x64_1_1_0_0_n_n.rhsIdx i q 1).val = (q ⟨0, by decide⟩).val :=
  dot_S4096x256_S64x256_S4096x64_1_1_0_0_n_n.rhsIdx_val_of_single rfl i q

/-- The query projection's product: the left operand is read at (row of the result, contracted position) … -/
theorem qdot_l0 (i : S512x64.Idx) (q : dot_S512x256_S64x256_S512x64_1_1_0_0_n_n.contr.Idx) :
    (dot_S512x256_S64x256_S512x64_1_1_0_0_n_n.lhsIdx i q 0).val = (i 0).val := by
  unfold DotDims.lhsIdx
  rw [dif_neg (show ¬(0 : Fin S512x256.rank) ∈ dot_S512x256_S64x256_S512x64_1_1_0_0_n_n.lhsBatch by decide),
    dif_pos (show (0 : Fin S512x256.rank) ∈ dot_S512x256_S64x256_S512x64_1_1_0_0_n_n.lhsNonContracting by decide)]
  rfl
theorem qdot_l1 (i : S512x64.Idx) (q : dot_S512x256_S64x256_S512x64_1_1_0_0_n_n.contr.Idx) :
    (dot_S512x256_S64x256_S512x64_1_1_0_0_n_n.lhsIdx i q 1).val = (q ⟨0, by decide⟩).val :=
  dot_S512x256_S64x256_S512x64_1_1_0_0_n_n.lhsIdx_val_of_single rfl i q
/-- … and the right operand at (column of the result, contracted position). -/
theorem qdot_r0 (i : S512x64.Idx) (q : dot_S512x256_S64x256_S512x64_1_1_0_0_n_n.contr.Idx) :
    (dot_S512x256_S64x256_S512x64_1_1_0_0_n_n.rhsIdx i q 0).val = (i 1).val := by
  unfold DotDims.rhsIdx
  rw [dif_neg (show ¬(0 : Fin S64x256.rank) ∈ dot_S512x256_S64x256_S512x64_1_1_0_0_n_n.rhsBatch by decide),
    dif_pos (show (0 : Fin S64x256.rank) ∈ dot_S512x256_S64x256_S512x64_1_1_0_0_n_n.rhsNonContracting by decide)]
  rfl
theorem qdot_r1 (i : S512x64.Idx) (q : dot_S512x256_S64x256_S512x64_1_1_0_0_n_n.contr.Idx) :
    (dot_S512x256_S64x256_S512x64_1_1_0_0_n_n.rhsIdx i q 1).val = (q ⟨0, by decide⟩).val :=
  dot_S512x256_S64x256_S512x64_1_1_0_0_n_n.rhsIdx_val_of_single rfl i q

/-! ## The key block's clipped projection and the value block -/

/-- The stored key projection at (c, j): key row c against weight row j, clipped at zero. -/
theorem pay1_apply (v34 : Vec Ideal S1x4096x256 .f32) (v36 : Vec Ideal S64x256 .f32) (c : Fin 4096) (j : Fin 64) :
    k0_pay1 (F := Ideal) v34 v36 (ix2 c j)
      = Cert.Spec.proj (fun m => v34 (ix3 (0 : Fin 1) c m)) (fun j' m => v36 (ix2 j' m)) j := by
  unfold k0_pay1 Cert.Spec.proj
  dsimp only
  rw [shapeCast_self]
  show max (matmul (φ₁ := .f32) (φ₂ := .f32) dot_S4096x256_S64x256_S4096x64_1_1_0_0_n_n (some .fp32) (shapeCast S4096x256 v34 shapeCasts_S1x4096x256_S4096x256) v36
      (constant (F := Ideal) S4096x64 .f32 0x00000000#32) (ix2 c j)) (Ideal.ofBits .f32 0x00000000#32) = _
  rw [Cert.Lib.DotRows.matmul_zero_apply (φ₁ := .f32) (φ₂ := .f32) dot_S4096x256_S64x256_S4096x64_1_1_0_0_n_n rfl rfl kdot_l0 kdot_l1 kdot_r0 kdot_r1]
  refine congrArg (fun x => max x _) (Finset.sum_congr rfl fun m _ => ?_)
  rw [shapeCast_1ab_ab_apply]

/-- The stored value block at (c, d): the block's entry (0, c, d). -/
theorem pay2_apply (v44 : Vec Ideal S1x4096x64 .f32) (c : Fin 4096) (d : Fin 64) :
    k0_pay2 (F := Ideal) v44 (ix2 c d) = v44 (ix3 (0 : Fin 1) c d) := by
  unfold k0_pay2
  rw [shapeCast_self]
  show shapeCast S4096x64 v44 shapeCasts_S1x4096x64_S4096x64 (ix2 c d) = _
  rw [shapeCast_1ab_ab_apply]

/-! ## The query block's clipped projection -/

/-- The query block viewed as [512, 256], multiplied with the weight table, clipped at zero and narrowed. -/
def qproj (v3 : Vec Ideal S1x512x256 .f32) (v5 : Vec Ideal S64x256 .f32) : FVec Ideal S512x64 .bf16 :=
  truncf .bf16 (maximumf (matmul (φ₁ := .f32) (φ₂ := .f32) dot_S512x256_S64x256_S512x64_1_1_0_0_n_n (some .fp32)
    (shapeCast S512x256 v3 shapeCasts_S1x512x256_S512x256) v5 (constant (F := Ideal) S512x64 .f32 0x00000000#32))
    (broadcast S512x64 (Scalar.ofBits (F := Ideal) .f32 0x00000000#32))) bitsLt_bf16_f32

/-- At (r, j): query row r against weight row j, clipped at zero. -/
theorem qproj_apply (v3 : Vec Ideal S1x512x256 .f32) (v5 : Vec Ideal S64x256 .f32) (r : Fin 512) (j : Fin 64) :
    qproj v3 v5 (ix2 r j)
      = Cert.Spec.proj (fun m => v3 (ix3 (0 : Fin 1) r m)) (fun j' m => v5 (ix2 j' m)) j := by
  unfold qproj Cert.Spec.proj
  show max (matmul (φ₁ := .f32) (φ₂ := .f32) dot_S512x256_S64x256_S512x64_1_1_0_0_n_n (some .fp32) (shapeCast S512x256 v3 shapeCasts_S1x512x256_S512x256) v5
      (constant (F := Ideal) S512x64 .f32 0x00000000#32) (ix2 r j)) (Ideal.ofBits .f32 0x00000000#32) = _
  rw [Cert.Lib.DotRows.matmul_zero_apply (φ₁ := .f32) (φ₂ := .f32) dot_S512x256_S64x256_S512x64_1_1_0_0_n_n rfl rfl qdot_l0 qdot_l1 qdot_r0 qdot_r1]
  refine congrArg (fun x => max x _) (Finset.sum_congr rfl fun m _ => ?_)
  rw [shapeCast_1ab_ab_apply]

end Cert.KernelIdeal.Pay

end
-- ==== Proof.PayScore.lean ====
/-
  The masked, scaled scores of a block of query rows against all keys, read at an index.

  The projected query block [512, 64] is multiplied row against row with the projected keys [4096, 64] into the zero
  splat, and every entry is multiplied by one eighth. The lane number of each entry (an iota along axis 1) is then
  compared with zero, and where it is zero the entry is replaced by the large negative word. At (r, c) this is the
  score of query row r against key c: the large negative word when c = 0, the scaled inner product otherwise.
-/
import proofs.«129011_j15599321219155_2_alg».proof.Proof.Gen.KernelIdeal.Skeleton
import proofs.«129011_j15599321219155_2_alg».proof.Proof.Spec
import proofs.«129011_j15599321219155_2_alg».proof.Proof.LibDotRows
import Idealize.ShloMosaic.Lib.Affine
import Idealize.ShloMosaic.Lib.Pipeline.Value

noncomputable section

namespace Cert.KernelIdeal.Pay

open Cert.KernelIdeal Cert.KernelIdeal.Gen Cert.Spec Idealize.ShloMosaic Idealize.ShloMosaic.ValueIdx

/-! ## A select on "this 32-bit lane number is zero" -/

/-- A select whose condition compares the 32-bit word of a number below 2³² with the zero word is the choice on
    whether the number is zero: below 2³² the word of a number is the zero word only for zero. -/
theorem select_laneZero {α : Type} (n : Nat) (hn : n < 2 ^ 32) (A B : α) :
    Scalar.select (IntOp.cmpi .eq (BitVec.ofNat 32 n) 0#32) A B = if n = 0 then A else B := by
  by_cases h : n = 0
  · subst h
    rfl
  · have hne : ¬ IntOp.cmpi .eq (BitVec.ofNat 32 n) 0#32 = 1#1 := fun hc => h (by
      have e := congrArg BitVec.toNat (IntOp.cmpi_eq.mp hc)
      rw [BitVec.toNat_ofNat, Nat.mod_eq_of_lt hn] at e
      exact e)
    rw [if_neg h]
    exact if_neg hne

/-! ## The score product's dimension record -/

/-- The score product: the left operand is read at (row of the result, contracted position) … -/
theorem sdot_l0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide),
    dif_pos (show (0 : Fin S512x64.rank) ∈ dot_S512x64_S4096x64_S512x4096_1_1_0_0_n_n.lhsNonContracting by decide)]
  rfl
theorem sdot_l1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
/-- … and the right operand at (column of the result, contracted position). -/
theorem sdot_r0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide),
    dif_pos (show (0 : Fin S4096x64.rank) ∈ dot_S512x64_S4096x64_S512x4096_1_1_0_0_n_n.rhsNonContracting by decide)]
  rfl
theorem sdot_r1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-! ## The score block -/

/-- The scaled product of the projected queries with the projected keys, with lane 0 of every row replaced by the
    large negative word. -/
def scoreBlock (q : FVec Ideal S512x64 .bf16) (k : FVec Ideal S4096x64 .bf16) : FVec Ideal S512x4096 .f32 :=
  select (cmpi .eq (iota .tc S512x4096 32 [1] iota_S512x4096_d1_w32) (broadcast S512x4096 (0#32 : BitVec 32)))
    (broadcast S512x4096 (Scalar.ofBits (F := Ideal) .f32 0xFE967699#32))
    (mulf (matmul (φ₁ := .bf16) (φ₂ := .bf16) dot_S512x64_S4096x64_S512x4096_1_1_0_0_n_n none q k (constant (F := Ideal) S512x4096 .f32 0x00000000#32))
      (broadcast S512x4096 (Scalar.ofBits (F := Ideal) .f32 0x3E000000#32)))

/-- At (r, c): the score of the projected query row r against key c. -/
theorem scoreBlock_apply (q : FVec Ideal S512x64 .bf16) (k : FVec Ideal S4096x64 .bf16) (r : Fin 512) (c : Fin 4096) :
    scoreBlock q k (ix2 r c) = Cert.Spec.score (fun j => q (ix2 r j)) (fun c' j => k (ix2 c' j)) c := by
  unfold scoreBlock Cert.Spec.score
  show Scalar.select (IntOp.cmpi .eq (iota .tc S512x4096 32 [1] iota_S512x4096_d1_w32 (ix2 r c)) 0#32)
      (Ideal.ofBits .f32 0xFE967699#32)
      (matmul (φ₁ := .bf16) (φ₂ := .bf16) dot_S512x64_S4096x64_S512x4096_1_1_0_0_n_n none q k (constant (F := Ideal) S512x4096 .f32 0x00000000#32) (ix2 r c)
        * Ideal.ofBits .f32 0x3E000000#32) = _
  rw [iota_single_apply, Cert.Lib.DotRows.matmul_zero_apply (φ₁ := .bf16) (φ₂ := .bf16) dot_S512x64_S4096x64_S512x4096_1_1_0_0_n_n rfl rfl sdot_l0 sdot_l1 sdot_r0 sdot_r1]
  exact select_laneZero c.val (by have := c.isLt; omega) _ _

end Cert.KernelIdeal.Pay

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«129011_j15599321219155_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.LibRowMax.lean ====
/-
  The largest entry of a row of an [a, b] block, read at an index, at the ideal instance.

  The maximum reduction of an [a, b] block along its lanes is, at row p, the fold of max over the b lanes of the block's
  row p, started from the extended real the accumulator's word denotes.
-/
import Idealize.ShloMosaic.PureOps.Ideal.Laws
import Idealize.ShloMosaic.Lib.ValueIdx
import proofs.«129011_j15599321219155_2_alg».proof.Proof.LibRowRead

noncomputable section

namespace Cert.Lib.RowMax

open Idealize.ShloMosaic Idealize.ShloMosaic.ValueIdx

/-- The lane maximum of an [a, b] block, at row p, is the fold of max over the b lanes of the block's row p from the
    accumulator's value. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k : Fin b => src (ix2 p k)) := by
  rw [Ideal.multiReduction_maximumf_single]
  exact Finset.fold_congr fun k _ => by
    show src (h.lift (ix1 p) k) = src (ix2 p k)
    rw [Cert.Lib.RowRead.lift_row]
    rfl

end Cert.Lib.RowMax

end
-- ==== Proof.LibMatmulAt.lean ====
/-
  A plain matrix product accumulated into the zero splat, read at an index, for operands of any float formats; and the zero
  offsets of a rank-2 rectangle as a constant function.

  For a rank-2 contraction [a, K] · [K, b] → [a, b] (the left operand's axis 1 against the right operand's axis 0, no batch
  axis), the accumulate-into-zero matrix product is, at the result index (p, q), the sum over k < K of
  lhs (p, k) · rhs (k, q). At the ideal instance a float of every format is an extended real, so the statement does not
  depend on the operands' formats: it is the f32 statement with the two formats left as parameters. The four coordinate
  facts about a given dimension record (hl0, hl1, hr0, hr1) are taken as hypotheses: for a literal record each is a
  computation.
-/
import proofs.«129011_j15599321219155_2_alg».proof.Proof.LibPlainDot

noncomputable section

namespace Cert.Lib.MatmulAt

open Idealize.ShloMosaic Idealize.ShloMosaic.ValueIdx

/-- The offset vector (0, 0) of a rank-2 rectangle is the constant function 0: the form in which the lemmas about a
    load or a store through a whole buffer at zero offsets take the offsets. -/
theorem hz : (![0, 0] : Fin 2 → Nat) = fun _ => 0 := funext fun a => by fin_cases a <;> rfl

/-- The matrix product of an [a, K] operand of format φ₁ with a [K, b] operand of format φ₂, accumulated into the zero
    splat, is at (p, q) the sum over k < K of lhs (p, k) · rhs (k, q) — for any dimension record D that contracts the
    left operand's axis 1 against the right operand's axis 0 (hr, hs: one contracted axis, of extent K; hl0 … hr1: at
    the result index i and the contraction index k the record names the operand indices (i 0, k) and (k, i 1)). -/
theorem matmul_zero_apply {a K b : Nat} {φ₁ φ₂ : FTy}
    (D : DotDims (⟨2, ![a, K]⟩ : Shape) (⟨2, ![K, b]⟩ : Shape) (⟨2, ![a, b]⟩ : Shape))
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (lhs : FVec Ideal (⟨2, ![a, K]⟩ : Shape) φ₁) (rhs : FVec Ideal (⟨2, ![K, b]⟩ : Shape) φ₂)
    (p : Fin a) (q : Fin b) :
    matmul D prec lhs rhs (constant (F := Ideal) (⟨2, ![a, b]⟩ : Shape) .f32 0x00000000#32) (ix2 p q)
      = ∑ k : Fin K, lhs (ix2 p k) * rhs (ix2 k q) :=
  (Ideal.matmul_constant_zero_apply D prec lhs rhs (ix2 p q)).trans
    (Cert.Lib.PlainDot.sum_contr D hr hs hl0 hl1 hr0 hr1 lhs rhs p q)

end Cert.Lib.MatmulAt

end
-- ==== Proof.PaySoftmax.lean ====
/-
  A block of score rows normalised and applied to the value rows, read at an index.

  For a block s of 512 rows of 4096 scores: each row's largest entry (the fold of max from minus infinity) is spread
  back along the row and subtracted, the exponential is taken, each row's sum of exponentials is spread back along the
  row and divided out, and the resulting weights [512, 4096] are multiplied with the value rows [4096, 64] into the zero
  splat; the product is stored under a leading unit axis. At (0, r, d) this is the weighted sum over the keys c of the
  value entry (c, d), with the weights of row r.
-/
import proofs.«129011_j15599321219155_2_alg».proof.Proof.Gen.KernelIdeal.Skeleton
import proofs.«129011_j15599321219155_2_alg».proof.Proof.Spec
import proofs.«129011_j15599321219155_2_alg».proof.Proof.LibRowRead
import proofs.«129011_j15599321219155_2_alg».proof.Proof.LibRowMax
import proofs.«129011_j15599321219155_2_alg».proof.Proof.LibMatmulAt
import Idealize.ShloMosaic.Lib.ValueLayout

noncomputable section

namespace Cert.KernelIdeal.Pay

open Cert.KernelIdeal Cert.KernelIdeal.Gen Cert.Spec Idealize.ShloMosaic Idealize.ShloMosaic.ValueIdx

/-! ## The weights-times-values product's dimension record -/

/-- The left operand is read at (row of the result, contracted position) … -/
theorem adot_l0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem adot_l1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
/-- … and the right operand at (contracted position, column of the result). -/
theorem adot_r0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem adot_r1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-! ## The row maximum, the exponentials, the normaliser and the weights -/

/-- Each row's largest entry, spread back along the row. -/
def rowMaxCol (s : FVec Ideal S512x4096 .f32) : FVec Ideal S512x4096 .f32 :=
  broadcastTo S512x4096 (shapeCast S512x1
    (multiReduction (F := Ideal) (φ := .f32) .maximumf [1] S512 s 0xFF800000#32 reduces_S512x4096_S512 (.inl rfl) rfl)
    shapeCasts_S512_S512x1) broadcasts_S512x1_S512x4096

/-- At (r, c): the largest score of row r. -/
theorem rowMaxCol_apply (s : FVec Ideal S512x4096 .f32) (r : Fin 512) (c : Fin 4096) :
    rowMaxCol s (ix2 r c) = Cert.Spec.rowMax (fun c' => s (ix2 r c')) := by
  unfold rowMaxCol Cert.Spec.rowMax
  rw [Cert.Lib.RowRead.broadcastTo_a1_ab_apply, Cert.Lib.RowRead.shapeCast_a_a1_apply]
  exact Cert.Lib.RowMax.rowMax_apply (φ := .f32) s 0xFF800000#32 reduces_S512x4096_S512 (.inl rfl) rfl r

/-- The exponential of every score less its row's largest. -/
def expBlock (s : FVec Ideal S512x4096 .f32) : FVec Ideal S512x4096 .f32 := exp (subf s (rowMaxCol s))

/-- At (r, c): the unnormalised weight of key c in row r. -/
theorem expBlock_apply (s : FVec Ideal S512x4096 .f32) (r : Fin 512) (c : Fin 4096) :
    expBlock s (ix2 r c) = Cert.Spec.weight (fun c' => s (ix2 r c')) c := by
  unfold expBlock Cert.Spec.weight
  show Ideal.exp (s (ix2 r c) - rowMaxCol s (ix2 r c)) = _
  rw [rowMaxCol_apply]

/-- Each row's sum of exponentials, spread back along the row. -/
def normCol (s : FVec Ideal S512x4096 .f32) : FVec Ideal S512x4096 .f32 :=
  broadcastTo S512x4096 (shapeCast S512x1
    (multiReduction (F := Ideal) (φ := .f32) .add [1] S512 (expBlock s) 0x00000000#32 reduces_S512x4096_S512 (.inl rfl) rfl)
    shapeCasts_S512_S512x1) broadcasts_S512x1_S512x4096

/-- At (r, c): the normaliser of row r. -/
theorem normCol_apply (s : FVec Ideal S512x4096 .f32) (r : Fin 512) (c : Fin 4096) :
    normCol s (ix2 r c) = Cert.Spec.norm (fun c' => s (ix2 r c')) := by
  unfold normCol Cert.Spec.norm
  rw [Cert.Lib.RowRead.broadcastTo_a1_ab_apply, Cert.Lib.RowRead.shapeCast_a_a1_apply]
  refine (Cert.Lib.RowRead.rowSum_apply (φ := .f32) (expBlock s) 0x00000000#32 reduces_S512x4096_S512 (.inl rfl) rfl r).trans ?_
  exact Finset.sum_congr rfl fun c' _ => expBlock_apply s r c'

/-- The normalised weights, narrowed (the identity on extended reals). -/
def weightBlock (s : FVec Ideal S512x4096 .f32) : FVec Ideal S512x4096 .bf16 :=
  truncf .bf16 (divf (expBlock s) (normCol s)) bitsLt_bf16_f32

/-- At (r, c): the weight of key c in row r over the row's normaliser. -/
theorem weightBlock_apply (s : FVec Ideal S512x4096 .f32) (r : Fin 512) (c : Fin 4096) :
    weightBlock s (ix2 r c)
      = Ideal.div (Cert.Spec.weight (fun c' => s (ix2 r c')) c) (Cert.Spec.norm (fun c' => s (ix2 r c'))) := by
  unfold weightBlock
  show Ideal.div (expBlock s (ix2 r c)) (normCol s (ix2 r c)) = _
  rw [expBlock_apply, normCol_apply]

/-! ## The attended rows -/

/-- The weights times the value rows, under a leading unit axis. -/
def attendBlock (s : FVec Ideal S512x4096 .f32) (v : FVec Ideal S4096x64 .bf16) : FVec Ideal S1x512x64 .f32 :=
  shapeCast S1x512x64 (matmul (φ₁ := .bf16) (φ₂ := .bf16) dot_S512x4096_S4096x64_S512x64_1_0_0_1_n_n none (weightBlock s) v
    (constant (F := Ideal) S512x64 .f32 0x00000000#32)) shapeCasts_S512x64_S1x512x64

/-- At (0, r, d): coordinate d of the attended row r. -/
theorem attendBlock_apply (s : FVec Ideal S512x4096 .f32) (v : FVec Ideal S4096x64 .bf16) (r : Fin 512) (d : Fin 64) :
    attendBlock s v (ix3 (0 : Fin 1) r d)
      = Cert.Spec.attend (fun c => s (ix2 r c)) (fun c d' => v (ix2 c d')) d := by
  unfold attendBlock Cert.Spec.attend
  rw [shapeCast_ab_1ab_apply,
    Cert.Lib.MatmulAt.matmul_zero_apply (φ₁ := .bf16) (φ₂ := .bf16) dot_S512x4096_S4096x64_S512x64_1_0_0_1_n_n rfl rfl adot_l0 adot_l1 adot_r0 adot_r1]
  exact Finset.sum_congr rfl fun c _ => by rw [weightBlock_apply]

end Cert.KernelIdeal.Pay

end
-- ==== Proof.PayAttend.lean ====
/-
  The kernel's attention row block, read at an index.

  The value the kernel stores for a block of 512 query rows is the composition of three pieces: the query block's
  clipped projection, the masked scaled scores of the projected queries against the projected keys, and the rows of
  scores normalised and applied to the value rows. At (0, r, d) it is coordinate d of the attended row r: the
  normalised weights of query row r's scores against the stored projected keys, applied to the stored value rows.
-/
import proofs.«129011_j15599321219155_2_alg».proof.Proof.PayProj
import proofs.«129011_j15599321219155_2_alg».proof.Proof.PayScore
import proofs.«129011_j15599321219155_2_alg».proof.Proof.PaySoftmax

noncomputable section

namespace Cert.KernelIdeal.Pay

open Cert.KernelIdeal Cert.KernelIdeal.Gen Cert.Spec Idealize.ShloMosaic Idealize.ShloMosaic.ValueIdx

/-- The stored row block is the three pieces composed: the operations are the same, in the same order. -/
theorem pay3_eq (v3 : Vec Ideal S1x512x256 .f32) (v5 : Vec Ideal S64x256 .f32) (v10 v29 : Vec Ideal S4096x64 .bf16) :
    k0_pay3 (F := Ideal) v3 v5 v10 v29 = attendBlock (scoreBlock (qproj v3 v5) v10) v29 := rfl

/-- The stored row block at (0, r, d): the attended row of query row r's scores against the stored projected keys,
    at coordinate d. -/
theorem pay3_apply (v3 : Vec Ideal S1x512x256 .f32) (v5 : Vec Ideal S64x256 .f32) (v10 v29 : Vec Ideal S4096x64 .bf16)
    (r : Fin 512) (d : Fin 64) :
    k0_pay3 (F := Ideal) v3 v5 v10 v29 (ix3 (0 : Fin 1) r d)
      = Cert.Spec.attend (Cert.Spec.score (Cert.Spec.proj (fun m => v3 (ix3 (0 : Fin 1) r m)) (fun j m => v5 (ix2 j m)))
          (fun c j => v10 (ix2 c j))) (fun c d' => v29 (ix2 c d')) d := by
  rw [pay3_eq, attendBlock_apply]
  refine congrArg (fun s => Cert.Spec.attend s (fun c d' => v29 (ix2 c d')) d) (funext fun c => ?_)
  rw [scoreBlock_apply]
  exact congrArg (fun qp => Cert.Spec.score qp (fun c' j => v10 (ix2 c' j)) c) (funext fun j => qproj_apply v3 v5 r j)

end Cert.KernelIdeal.Pay

end
-- ==== Proof.KernelValue.lean ====
/-
  The kernel's result array is the specification of its argument arrays.

  After grid point `t` the output buffer holds the attention rows of the point's query block against the projected
  keys and the values of its batch, which the two carried buffers hold. Read at an entry, and with every block read
  off its whole array, that is the specification at batch `t / 8`, row `512 * (t % 8) + r` and the entry's
  coordinate: exactly the entry of the output array that the point's write-back puts it in. The write-backs cover
  the output array, so the array ends as the specification everywhere.
-/
import proofs.«129011_j15599321219155_2_alg».proof.Proof.Carried
import proofs.«129011_j15599321219155_2_alg».proof.Proof.BlockReads
import proofs.«129011_j15599321219155_2_alg».proof.Proof.PayAttend
import proofs.«129011_j15599321219155_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- An entry of a block of three axes whose first axis has one coordinate, by its other two coordinates. -/
theorem entry_eq (y : S1x512x64.Idx) : y = ix3 (0 : Fin 1) (y 1) (y 2) := by
  have h := eq_ix3 y
  have h0 : y 0 = (0 : Fin 1) := Fin.ext (by
    have hlt : (y 0).val < 1 := (y 0).isLt
    show (y 0).val = 0
    omega)
  rw [h0] at h
  exact h

/-- The attention rows of a query block against the projected key block and the value block, at an entry: the
    attended row of the entry's query row, at the entry's coordinate. -/
theorem rows_apply (x0 : Vec Ideal S1x512x256 .f32) (x3 x4 : Vec Ideal S64x256 .f32) (x1 : Vec Ideal S1x4096x256 .f32)
    (x2 : Vec Ideal S1x4096x64 .f32) (y : S1x512x64.Idx) :
    k0_pay3 (F := Ideal) x0 x3 (k0_pay1 x1 x4) (k0_pay2 x2) y
      = Cert.Spec.attend
          (Cert.Spec.score (Cert.Spec.proj (fun m' => x0 (ix3 (0 : Fin 1) (y 1) m')) (fun j m' => x3 (ix2 j m')))
            (fun c' => Cert.Spec.proj (fun m' => x1 (ix3 (0 : Fin 1) c' m')) (fun j m' => x4 (ix2 j m'))))
          (fun c' d => x2 (ix3 (0 : Fin 1) c' d)) (y 2) := by
  obtain ⟨r, d, rfl⟩ : ∃ (r : Fin 512) (d : Fin 64), y = ix3 (0 : Fin 1) r d := ⟨y 1, y 2, entry_eq y⟩
  show k0_pay3 (F := Ideal) x0 x3 (k0_pay1 x1 x4) (k0_pay2 x2) (ix3 (0 : Fin 1) r d)
      = Cert.Spec.attend
          (Cert.Spec.score (Cert.Spec.proj (fun m' => x0 (ix3 (0 : Fin 1) r m')) (fun j m' => x3 (ix2 j m')))
            (fun c' => Cert.Spec.proj (fun m' => x1 (ix3 (0 : Fin 1) c' m')) (fun j m' => x4 (ix2 j m'))))
          (fun c' d' => x2 (ix3 (0 : Fin 1) c' d')) d
  rw [Cert.KernelIdeal.Pay.pay3_apply]
  simp only [Cert.KernelIdeal.Pay.pay1_apply, Cert.KernelIdeal.Pay.pay2_apply]

/-- The output array the kernel ends with: the specification of the argument arrays as the kernel found them. -/
def result (c : Dev nD) : Buf (Elt Ideal) ((c : Thread nD τ).loc main_v0) := fun i =>
  Cert.Spec.G (fun b r m' => V m c main_arg0 (ix3 b r m')) (fun b r m' => V m c main_arg1 (ix3 b r m'))
    (fun b r d => V m c main_arg2 (ix3 b r d)) (fun j m' => V m c main_arg3 (ix2 j m'))
    (fun j m' => V m c main_arg4 (ix2 j m')) (i 0) (i 1) (i 2)

/-- What grid point `t` writes back is its block of the specification. -/
theorem flushed_eq (c : Dev nD) (t : Fin cfg0.N) :
    (dats m 0 c).flushed 5 t = ((cfg0.win 5).blk t).view.read (Elt Ideal) (result m c) := by
  rw [Cert.KernelIdeal.Value.flushed5, Carried.rows_after m c t]
  funext y
  obtain ⟨e0, e1, e2⟩ := Blocks.out_emb t y
  have hf : (Carried.first t.val t.isLt).val / 8 = t.val / 8 := by rw [Carried.first_val]; omega
  show k0_pay3 (F := Ideal) (iblk m c 0 t) (iblk m c 3 t)
        (k0_pay1 (iblk m c 1 (Carried.first t.val t.isLt)) (iblk m c 4 (Carried.first t.val t.isLt)))
        (k0_pay2 (iblk m c 2 (Carried.first t.val t.isLt))) y
      = result m c (((cfg0.win 5).blk t).view.emb y)
  refine (rows_apply (iblk m c 0 t) (iblk m c 3 t) (iblk m c 4 (Carried.first t.val t.isLt))
    (iblk m c 1 (Carried.first t.val t.isLt)) (iblk m c 2 (Carried.first t.val t.isLt)) y).trans ?_
  have hq : ∀ m' : Fin 256, iblk m c 0 t (ix3 (0 : Fin 1) (y 1) m')
      = V m c main_arg0 (ix3 ((((cfg0.win 5).blk t).view.emb y) 0) ((((cfg0.win 5).blk t).view.emb y) 1) m') :=
    fun m' => Blocks.query_block m c t (ix3 (0 : Fin 1) (y 1) m') _ _ e0 e1
  have hwq : ∀ (j : Fin 64) (m' : Fin 256), iblk m c 3 t (ix2 j m') = V m c main_arg3 (ix2 j m') :=
    fun j m' => Blocks.qweight_block m c t (ix2 j m')
  have hk : ∀ (c' : Fin 4096) (m' : Fin 256), iblk m c 1 (Carried.first t.val t.isLt) (ix3 (0 : Fin 1) c' m')
      = V m c main_arg1 (ix3 ((((cfg0.win 5).blk t).view.emb y) 0) c' m') :=
    fun c' m' => Blocks.key_block m c (Carried.first t.val t.isLt) (ix3 (0 : Fin 1) c' m') _ (by omega)
  have hwk : ∀ (j : Fin 64) (m' : Fin 256), iblk m c 4 (Carried.first t.val t.isLt) (ix2 j m') = V m c main_arg4 (ix2 j m') :=
    fun j m' => Blocks.kweight_block m c (Carried.first t.val t.isLt) (ix2 j m')
  have hv : ∀ (c' : Fin 4096) (d : Fin 64), iblk m c 2 (Carried.first t.val t.isLt) (ix3 (0 : Fin 1) c' d)
      = V m c main_arg2 (ix3 ((((cfg0.win 5).blk t).view.emb y) 0) c' d) :=
    fun c' d => Blocks.value_block m c (Carried.first t.val t.isLt) (ix3 (0 : Fin 1) c' d) _ (by omega)
  have h2 : (((cfg0.win 5).blk t).view.emb y) 2 = y 2 := Fin.ext e2
  simp only [hq, hwq, hk, hwk, hv]
  unfold result Cert.Spec.G
  rw [h2]

/-- The output array after the run is the specification of the argument arrays. -/
theorem final (c : Dev nD) : (dats m 0 c).arrAt 5 cfg0.N = result m c :=
  (dats m 0 c).arrAt_eq_of_cover 5 (result m c) (fun t _ => flushed_eq m c t) Blocks.covered

/-- The kernel's run, read: the output array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KernelValue

end
-- ==== Proof.LibWords.lean ====
/-
  The f32 words that a batch-normalised pipeline over 4096 rows and a softmax with scale 1/8 spell, as the
  extended reals they denote: 8, 1/8, 4096, 1/4096, 1, 0, −∞ and +∞.  Two consequences follow at once:
  dividing by the word of 4096 (of 8) is multiplying by the word of 1/4096 (of 1/8), at every extended real,
  the infinities included; and 4096 − 0 = 4096 > 0, which is what a guarded variance (divide by the number
  of rows only when that number minus the degrees of freedom is positive) asks.
-/
import Idealize.ShloMosaic.PureOps.Ideal
import Idealize.ShloMosaic.PureOps.Ideal.Laws

noncomputable section

namespace Cert.LibWords

open Idealize.ShloMosaic

/-- The word 0x41000000 is 8 = 2³. -/
theorem ofBits_eight : Ideal.ofBits .f32 0x41000000#32 = ((8 : ℝ) : EReal) := by
  simp [Ideal.ofBits, Ideal.ieee, -EReal.coe_mul]; norm_num

/-- The word 0x3E000000 is 1/8 = 2⁻³. -/
theorem ofBits_eighth : Ideal.ofBits .f32 0x3E000000#32 = ((1 / 8 : ℝ) : EReal) := by
  simp [Ideal.ofBits, Ideal.ieee, -EReal.coe_mul]; norm_num

/-- The word 0x45800000 is 4096 = 2¹². -/
theorem ofBits_4096 : Ideal.ofBits .f32 0x45800000#32 = ((4096 : ℝ) : EReal) := by
  simp [Ideal.ofBits, Ideal.ieee, -EReal.coe_mul]; norm_num

/-- The word 0x39800000 is 1/4096 = 2⁻¹². -/
theorem ofBits_inv4096 : Ideal.ofBits .f32 0x39800000#32 = ((1 / 4096 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- The word 0x00000000 is 0. -/
theorem ofBits_zero : Ideal.ofBits .f32 0x00000000#32 = 0 := Ideal.ofBits_zero_f32

/-- The word 0xFF800000 (sign set, exponent all ones, fraction zero) is −∞. -/
theorem ofBits_negInf : Ideal.ofBits .f32 0xFF800000#32 = ⊥ := by
  simp [Ideal.ofBits, Ideal.ieee]

/-- The word 0x7F800000 (sign clear, exponent all ones, fraction zero) is +∞. -/
theorem ofBits_posInf : Ideal.ofBits .f32 0x7F800000#32 = ⊤ := by
  simp [Ideal.ofBits, Ideal.ieee]

/-- Dividing by 4096 is multiplying by 1/4096, at every extended real. -/
theorem div_4096 (x : EReal) :
    Ideal.div x (Ideal.ofBits .f32 0x45800000#32) = x * Ideal.ofBits .f32 0x39800000#32 := by
  rw [ofBits_4096, ofBits_inv4096]; exact Ideal.div_coe (by norm_num) x

/-- Dividing by 8 is multiplying by 1/8, at every extended real. -/
theorem div_eight (x : EReal) :
    Ideal.div x (Ideal.ofBits .f32 0x41000000#32) = x * Ideal.ofBits .f32 0x3E000000#32 := by
  rw [ofBits_eight, ofBits_eighth]; exact Ideal.div_coe (by norm_num) x

/-- 4096 − 0 = 4096 on the extended reals. -/
theorem sub_4096_zero :
    Ideal.ofBits .f32 0x45800000#32 - Ideal.ofBits .f32 0x00000000#32 = Ideal.ofBits .f32 0x45800000#32 := by
  rw [ofBits_zero, sub_zero]

/-- 4096 > 0: the ordered comparison "greater than" of the two words answers true. -/
theorem cmp_ogt_4096_zero :
    Ideal.cmp .ogt (Ideal.ofBits .f32 0x45800000#32) (Ideal.ofBits .f32 0x00000000#32) = 1#1 := by
  rw [ofBits_4096, ofBits_zero]
  have h : (0 : EReal) < ((4096 : ℝ) : EReal) := by exact_mod_cast (by norm_num : (0 : ℝ) < 4096)
  simp [Ideal.cmp, h]

/-- The same through the subtraction: (4096 − 0) > 0. -/
theorem cmp_ogt_sub_4096_zero :
    Ideal.cmp .ogt (Ideal.ofBits .f32 0x45800000#32 - Ideal.ofBits .f32 0x00000000#32)
      (Ideal.ofBits .f32 0x00000000#32) = 1#1 := by
  rw [sub_4096_zero]; exact cmp_ogt_4096_zero

end Cert.LibWords

end
-- ==== Proof.LibScatterConst.lean ====
/-
  Writing one constant at many places, one place after another.

  A scatter walks its update positions in some order. Each position either lands on an element of the operand,
  which is then replaced, or lands outside the operand and is dropped. When the body of the scatter keeps the
  update and every update is the same value K, neither the order of the walk nor the number of times an element
  is hit matters: the result at an element is K when some update position lands on it, and the operand's element
  otherwise. No injectivity of the landing map is needed for that.

  The first lemma says this for any left fold whose step writes K where a test holds and leaves the rest alone;
  the second instantiates it at the scatter of a one-operand program.
-/
import Idealize.ShloMosaic.PureOps.ShapeOps

universe u v w

namespace Cert.Lib.ScatterConst

open Idealize.ShloMosaic

open Classical in
/-- A left fold over a list of positions, starting from the function `x`, whose step at position `n` writes the
    constant `K` at every point the position hits and keeps the other points: at a point `i` the outcome is `K` when
    some position of the list hits `i`, and `x i` when none does. By induction on the list: the positions after the
    first decide the matter when one of them hits `i`; when none does, the first step alone is seen. -/
theorem foldl_const_hit {ι : Type u} {β : Type v} {γ : Type w} (K : β) (hit : γ → ι → Prop)
    (step : (ι → β) → γ → ι → β) (hstep : ∀ r n i, step r n i = if hit n i then K else r i)
    (l : List γ) (x : ι → β) (i : ι) :
    l.foldl step x i = if ∃ n ∈ l, hit n i then K else x i := by
  induction l generalizing x with
  | nil => simp
  | cons n l ih =>
    rw [List.foldl_cons, ih]
    by_cases h : ∃ m ∈ l, hit m i
    · obtain ⟨m, hm, hh⟩ := h
      rw [if_pos ⟨m, hm, hh⟩, if_pos ⟨m, List.mem_cons_of_mem _ hm, hh⟩]
    · rw [if_neg h, hstep]
      by_cases hn : hit n i
      · rw [if_pos hn, if_pos ⟨n, List.mem_cons_self, hn⟩]
      · rw [if_neg hn, if_neg]
        rintro ⟨m, hm, hh⟩
        rcases List.mem_cons.1 hm with e | hm
        · exact hn (e ▸ hh)
        · exact h ⟨m, hm, hh⟩

open Classical in
/-- A scatter whose body returns the update, with every update equal to `K`, read at an element `i` of the operand:
    `K` when `i` is the landing index of some update position, the operand's element otherwise. -/
theorem scatter_const_apply {α : Type} {s si u : Shape} {wd : Nat} (d : ScatterDims s si u) (x : s.Idx → α)
    (idx : IVec si wd) (upd : u.Idx → α) (K : α) (hupd : ∀ j, upd j = K) (i : s.Idx) :
    Host.scatter d (fun _ b => b) x idx upd i = if ∃ j : u.Idx, d.resultIdx? j idx = some i then K else x i := by
  unfold Host.scatter
  rw [foldl_const_hit K (fun n i => d.resultIdx? (u.rowMajor.symm n) idx = some i)]
  · by_cases h : ∃ j : u.Idx, d.resultIdx? j idx = some i
    · obtain ⟨j, hj⟩ := h
      have hn : ∃ n ∈ List.finRange u.numel, d.resultIdx? (u.rowMajor.symm n) idx = some i :=
        ⟨u.rowMajor j, List.mem_finRange _, by rw [Equiv.symm_apply_apply]; exact hj⟩
      have hj' : ∃ j : u.Idx, d.resultIdx? j idx = some i := ⟨j, hj⟩
      rw [if_pos hn, if_pos hj']
    · have hn : ¬∃ n ∈ List.finRange u.numel, d.resultIdx? (u.rowMajor.symm n) idx = some i :=
        fun ⟨n, _, hn⟩ => h ⟨_, hn⟩
      rw [if_neg hn, if_neg h]
  · intro r n i'
    cases h : d.resultIdx? (u.rowMajor.symm n) idx with
    | none => simp
    | some i0 =>
      show (if i' = i0 then upd (u.rowMajor.symm n) else r i') = _
      by_cases e : i' = i0
      · rw [if_pos e, if_pos (by rw [e]), hupd]
      · rw [if_neg e, if_neg (fun h' => e (Option.some.inj h').symm)]

/-- The same at an element some update position lands on: the constant. -/
theorem scatter_const_of_hit {α : Type} {s si u : Shape} {wd : Nat} (d : ScatterDims s si u) (x : s.Idx → α)
    (idx : IVec si wd) (upd : u.Idx → α) (K : α) (hupd : ∀ j, upd j = K) (i : s.Idx)
    (h : ∃ j : u.Idx, d.resultIdx? j idx = some i) :
    Host.scatter d (fun _ b => b) x idx upd i = K := by
  rw [scatter_const_apply d x idx upd K hupd i, if_pos h]

/-- The same at an element no update position lands on: the operand's element. -/
theorem scatter_const_of_miss {α : Type} {s si u : Shape} {wd : Nat} (d : ScatterDims s si u) (x : s.Idx → α)
    (idx : IVec si wd) (upd : u.Idx → α) (K : α) (hupd : ∀ j, upd j = K) (i : s.Idx)
    (h : ¬∃ j : u.Idx, d.resultIdx? j idx = some i) :
    Host.scatter d (fun _ b => b) x idx upd i = x i := by
  rw [scatter_const_apply d x idx upd K hupd i, if_neg h]

end Cert.Lib.ScatterConst
-- ==== Proof.RefScatter.lean ====
/-
  The reference's masked scores, read at an index.

  The reference overwrites column 0 of the scaled scores with one large negative word: a scatter with a single
  scatter index, the word 0, naming a start on the key axis; an update array of 4 x 4096 entries, one per batch and
  query row, every entry the same word; and a body that returns the update. Update position (b, r) starts at key
  0 + 0 and has window coordinates (b, r) on the two kept axes, so it lands on (b, r, 0), always inside the array.
  Hence an element (b, r, c) is the landing index of some update position exactly when c = 0, and the scattered
  array is the large negative word in column 0 and the scaled scores elsewhere.
-/
import proofs.«129011_j15599321219155_2_alg».proof.Proof.Gen.ReferenceIdeal.Read
import proofs.«129011_j15599321219155_2_alg».proof.Proof.LibScatterConst
import Idealize.ShloMosaic.Lib.ValueIdx

noncomputable section

namespace Cert.RefScatter

open Cert.ReferenceIdeal Cert.ReferenceIdeal.Gen Cert.ReferenceIdeal.Read Idealize.ShloMosaic Idealize.ShloMosaic.ValueIdx

/-- The scatter's dimension numbers: both update axes are window axes, the key axis is inserted and is the one
    axis the scatter index names. -/
abbrev dims : ScatterDims S4x4096x4096 S1 S4x4096 := scatter_S4x4096x4096_S1_S4x4096_01_2_2_0

/-- With every scatter index the word 0 the window starts at 0 on every axis. -/
theorem start_zero (idx : IVec S1 32) (hidx : ∀ k, idx k = 0#32) (j : S4x4096.Idx) (a : Fin S4x4096x4096.rank) :
    dims.start j idx a = 0 := by
  unfold ScatterDims.start
  split
  · rw [hidx]; rfl
  · rfl

/-- On the batch axis the window coordinate is the update position's batch. -/
theorem window_0 (j : S4x4096.Idx) : dims.window j (0 : Fin 3) = (j 0).val := by
  unfold ScatterDims.window
  rw [dif_pos (show (0 : Fin S4x4096x4096.rank) ∈ dims.sKept by decide)]
  rfl

/-- On the query axis the window coordinate is the update position's row. -/
theorem window_1 (j : S4x4096.Idx) : dims.window j (1 : Fin 3) = (j 1).val := by
  unfold ScatterDims.window
  rw [dif_pos (show (1 : Fin S4x4096x4096.rank) ∈ dims.sKept by decide)]
  rfl

/-- On the key axis, which is inserted, the window coordinate is 0. -/
theorem window_2 (j : S4x4096.Idx) : dims.window j (2 : Fin 3) = 0 := by
  unfold ScatterDims.window
  rw [dif_neg (show ¬(2 : Fin S4x4096x4096.rank) ∈ dims.sKept by decide)]

/-- Update position (b, r) lands on (b, r, 0). -/
theorem resultIdx_eq (idx : IVec S1 32) (hidx : ∀ k, idx k = 0#32) (b : Fin 4) (r : Fin 4096) :
    dims.resultIdx? (ix2 b r) idx = some (ix3 b r (0 : Fin 4096)) := by
  have hs := start_zero idx hidx (ix2 b r)
  have h0 := window_0 (ix2 b r)
  have h1 := window_1 (ix2 b r)
  have h2 := window_2 (ix2 b r)
  have hb : ∀ a, 0 ≤ dims.start (ix2 b r) idx a + dims.window (ix2 b r) a ∧
      dims.start (ix2 b r) idx a + dims.window (ix2 b r) a < S4x4096x4096.size a := by
    intro a
    rw [hs a]
    match a with
    | ⟨0, _⟩ =>
      show 0 ≤ (0 : Int) + (dims.window (ix2 b r) (0 : Fin 3) : Nat) ∧ (0 : Int) + (dims.window (ix2 b r) (0 : Fin 3) : Nat) < ((4 : Nat) : Int)
      rw [h0]; have := b.isLt; show 0 ≤ (0 : Int) + (b.val : Nat) ∧ (0 : Int) + (b.val : Nat) < ((4 : Nat) : Int); omega
    | ⟨1, _⟩ =>
      show 0 ≤ (0 : Int) + (dims.window (ix2 b r) (1 : Fin 3) : Nat) ∧ (0 : Int) + (dims.window (ix2 b r) (1 : Fin 3) : Nat) < ((4096 : Nat) : Int)
      rw [h1]; have := r.isLt; show 0 ≤ (0 : Int) + (r.val : Nat) ∧ (0 : Int) + (r.val : Nat) < ((4096 : Nat) : Int); omega
    | ⟨2, _⟩ =>
      show 0 ≤ (0 : Int) + (dims.window (ix2 b r) (2 : Fin 3) : Nat) ∧ (0 : Int) + (dims.window (ix2 b r) (2 : Fin 3) : Nat) < ((4096 : Nat) : Int)
      rw [h2]; omega
  unfold ScatterDims.resultIdx?
  rw [dif_pos hb]
  refine congrArg some (funext fun a => Fin.ext ?_)
  show (dims.start (ix2 b r) idx a + dims.window (ix2 b r) a).toNat = (ix3 b r (0 : Fin 4096) a).val
  rw [hs a]
  match a with
  | ⟨0, _⟩ =>
    show ((0 : Int) + (dims.window (ix2 b r) (0 : Fin 3) : Nat)).toNat = b.val
    rw [h0]; show ((0 : Int) + (b.val : Nat)).toNat = b.val; omega
  | ⟨1, _⟩ =>
    show ((0 : Int) + (dims.window (ix2 b r) (1 : Fin 3) : Nat)).toNat = r.val
    rw [h1]; show ((0 : Int) + (r.val : Nat)).toNat = r.val; omega
  | ⟨2, _⟩ =>
    show ((0 : Int) + (dims.window (ix2 b r) (2 : Fin 3) : Nat)).toNat = 0
    rw [h2]; rfl

/-- An element (b, r, c) is the landing index of some update position exactly when c = 0. -/
theorem hit_iff (idx : IVec S1 32) (hidx : ∀ k, idx k = 0#32) (b : Fin 4) (r c : Fin 4096) :
    (∃ j : S4x4096.Idx, dims.resultIdx? j idx = some (ix3 b r c)) ↔ c.val = 0 := by
  constructor
  · rintro ⟨j, hj⟩
    obtain ⟨p, q, rfl⟩ : ∃ (p : Fin 4) (q : Fin 4096), j = ix2 p q := ⟨j 0, j 1, eq_ix2 j⟩
    rw [resultIdx_eq idx hidx p q] at hj
    have e := congrFun (Option.some.inj hj) (2 : Fin 3)
    have e' : (0 : Fin 4096) = c := e
    rw [← e']; rfl
  · intro hc
    have e : c = (0 : Fin 4096) := Fin.ext hc
    subst e
    exact ⟨ix2 b r, resultIdx_eq idx hidx b r⟩

/-- Every scatter index of the reference is the word 0. -/
theorem idx_zero (k : S1.Idx) : val_main_v7 (F := Ideal) k = 0#32 := by
  rw [val_main_v7_apply, val_main_c_apply]

/-- Every update of the reference is the large negative word. -/
theorem upd_const (j : S4x4096.Idx) : val_main_v8 (F := Ideal) j = Ideal.ofBits .f32 0xFE967699#32 := by
  rw [val_main_v8_apply, val_main_cst_0_apply]; rfl

/-- The scattered scores at (b, r, c): the large negative word in column 0, the scaled scores elsewhere. -/
theorem val_main_v9_apply (x0 x1 : (⟨S4x4096x256, .f32⟩ : BufTy).Contents (Elt Ideal))
    (x3 x4 : (⟨S64x256, .f32⟩ : BufTy).Contents (Elt Ideal)) (b : Fin 4) (r c : Fin 4096) :
    val_main_v9 (F := Ideal) x0 x1 x3 x4 (ix3 b r c)
      = if c.val = 0 then Ideal.ofBits .f32 0xFE967699#32 else val_main_v6 (F := Ideal) x0 x1 x3 x4 (ix3 b r c) := by
  unfold val_main_v9
  generalize val_main_v6 (F := Ideal) x0 x1 x3 x4 = y
  by_cases hc : c.val = 0
  · rw [if_pos hc]
    exact Cert.Lib.ScatterConst.scatter_const_of_hit dims y _ _ _ upd_const _
      ((hit_iff _ idx_zero b r c).2 hc)
  · rw [if_neg hc]
    exact Cert.Lib.ScatterConst.scatter_const_of_miss dims y _ _ _ upd_const _
      (fun h => hc ((hit_iff _ idx_zero b r c).1 h))

end Cert.RefScatter

end
-- ==== Proof.RefRowMax.lean ====
/-
  The reference's row maximum, read at an index.

  The reference takes, for every batch b and query row r, the largest of the 4096 masked scores of that row: a
  reduction by the maximum over the key axis, started from the word of minus infinity. The maximum is commutative
  and associative, so the reduction at (b, r) is the fold of the maximum from minus infinity over the 4096 keys of
  the row, which is how the specification writes a row's largest score. The reference then takes the maximum of
  that with minus infinity once more, which changes nothing: minus infinity is below every extended real.
-/
import proofs.«129011_j15599321219155_2_alg».proof.Proof.Gen.ReferenceIdeal.Read
import proofs.«129011_j15599321219155_2_alg».proof.Proof.Spec
import proofs.«129011_j15599321219155_2_alg».proof.Proof.LibWords
import Idealize.ShloMosaic.PureOps.Reduce
import Idealize.ShloMosaic.PureOps.Ideal.Laws
import Idealize.ShloMosaic.Lib.ValueIdx

noncomputable section

namespace Cert.RefRowMax

open Cert.ReferenceIdeal Cert.ReferenceIdeal.Gen Cert.ReferenceIdeal.Read Idealize.ShloMosaic Idealize.ShloMosaic.ValueIdx

/-- Dropping the key axis of a [4, 4096, 4096] array leaves a [4, 4096] one. -/
theorem reduces : S4x4096x4096.Reduces [2] S4x4096 := by decide

/-- The reduced index (b, r) with key k put back is (b, r, k). -/
theorem lift_eq (b : Fin 4) (r : Fin 4096) (k : Fin 4096) :
    reduces.lift (ix2 b r) k = ix3 b r k := by
  funext c; apply Fin.ext
  match c with
  | ⟨0, _⟩ => rfl
  | ⟨1, _⟩ => rfl
  | ⟨2, _⟩ => rfl

/-- The reduction at (b, r) is the largest of row (b, r)'s 4096 masked scores, as the specification writes it. -/
theorem val_main_v10_apply (x0 x1 : (⟨S4x4096x256, .f32⟩ : BufTy).Contents (Elt Ideal))
    (x3 x4 : (⟨S64x256, .f32⟩ : BufTy).Contents (Elt Ideal)) (b : Fin 4) (r : Fin 4096) :
    val_main_v10 (F := Ideal) x0 x1 x3 x4 (ix2 b r)
      = Cert.Spec.rowMax (fun c => val_main_v9 (F := Ideal) x0 x1 x3 x4 (ix3 b r c)) := by
  unfold val_main_v10
  generalize val_main_v9 (F := Ideal) x0 x1 x3 x4 = y
  refine (Host.reduce_eq_fold_single (FloatOps.maximumf (F := Ideal) (φ := .f32)) y _
    reducesTo_S4x4096x4096_S4x4096_d2 reduces h_S_ (ix2 b r)).trans ?_
  unfold Cert.Spec.rowMax
  show (Finset.univ : Finset (Fin 4096)).fold max (Ideal.ofBits .f32 0xFF800000#32)
      (fun k => y (reduces.lift (ix2 b r) k)) = _
  refine congrArg (fun f => (Finset.univ : Finset (Fin 4096)).fold max (Ideal.ofBits .f32 0xFF800000#32) f) ?_
  funext k
  exact congrArg y (lift_eq b r k)

/-- Taking the maximum with minus infinity once more leaves the row's largest score. -/
theorem val_main_v12_rowMax (x0 x1 : (⟨S4x4096x256, .f32⟩ : BufTy).Contents (Elt Ideal))
    (x3 x4 : (⟨S64x256, .f32⟩ : BufTy).Contents (Elt Ideal)) (b : Fin 4) (r : Fin 4096) :
    val_main_v12 (F := Ideal) x0 x1 x3 x4 (ix2 b r)
      = Cert.Spec.rowMax (fun c => val_main_v9 (F := Ideal) x0 x1 x3 x4 (ix3 b r c)) := by
  rw [val_main_v12_apply, val_main_v11_apply, val_main_cst_2_apply, val_main_v10_apply]
  show max (Ideal.ofBits .f32 0xFF800000#32) _ = _
  exact max_eq_right (by rw [Cert.LibWords.ofBits_negInf]; exact bot_le)

end Cert.RefRowMax

end
-- ==== Proof.RefValue.lean ====
/-
  The reference computes the specification.

  Read one operation at a time, at batch b, query row r and coordinate d, the reference is: the two projections
  clipped at zero (a contraction over the 256 model coordinates, then the maximum with the zero word); their inner
  product over the 64 projected coordinates, divided by the word of 8, which is the product with the word of one
  eighth; column 0 of the scores overwritten by the large negative word; the row's largest score; the exponential
  of each score minus that; the sum of those over the row, started from the zero word; their quotient; and the
  contraction of the quotients with the value rows. Each of these is, entry by entry, the matching piece of the
  specification — the projection, the score, the row maximum, the weight, the normaliser, the attended row — so
  the reference's result at (b, r, d) is the specification there. The only steps that are not a plain reading are
  the scatter and the maximum-reduction, read in their own modules, and two words: dividing by 8 is multiplying
  by one eighth, and adding to the zero word adds nothing.
-/
import proofs.«129011_j15599321219155_2_alg».proof.Proof.Gen.ReferenceIdeal.Read
import proofs.«129011_j15599321219155_2_alg».proof.Proof.Spec
import proofs.«129011_j15599321219155_2_alg».proof.Proof.LibWords
import proofs.«129011_j15599321219155_2_alg».proof.Proof.RefScatter
import proofs.«129011_j15599321219155_2_alg».proof.Proof.RefRowMax
import Idealize.ShloMosaic.PureOps.Ideal
import Idealize.ShloMosaic.Lib.ValueIdx

noncomputable section

namespace Cert.RefValue

open Cert.ReferenceIdeal Cert.ReferenceIdeal.Gen Cert.ReferenceIdeal.Read Idealize.ShloMosaic Idealize.ShloMosaic.ValueIdx

variable (x0 x1 : (⟨S4x4096x256, .f32⟩ : BufTy).Contents (Elt Ideal))
  (x2 : (⟨S4x4096x64, .f32⟩ : BufTy).Contents (Elt Ideal))
  (x3 x4 : (⟨S64x256, .f32⟩ : BufTy).Contents (Elt Ideal))

/-- The projected and clipped query row (b, r). -/
abbrev qp (b : Fin 4) (r : Fin 4096) : Fin 64 → EReal :=
  Cert.Spec.proj (fun m => x0 (ix3 b r m)) (fun j m => x3 (ix2 j m))

/-- The projected and clipped key row (b, c). -/
abbrev kp (b : Fin 4) (c : Fin 4096) : Fin 64 → EReal :=
  Cert.Spec.proj (fun m => x1 (ix3 b c m)) (fun j m => x4 (ix2 j m))

/-- The masked scores of query row (b, r) against the 4096 keys of batch b. -/
abbrev sc (b : Fin 4) (r : Fin 4096) : Fin 4096 → EReal :=
  Cert.Spec.score (qp x0 x3 b r) (fun c => kp x1 x4 b c)

/-- The clipped query projection at (b, r, j). -/
theorem v1_at (b : Fin 4) (r : Fin 4096) (j : Fin 64) :
    val_main_v1 (F := Ideal) x0 x3 (ix3 b r j) = qp x0 x3 b r j := by
  have el : ∀ k : Fin 256, lidx_main_v0 (ix3 b r j) k = ix3 b r k := fun k => funext fun a => by
    match a with
    | ⟨0, _⟩ => rfl
    | ⟨1, _⟩ => rfl
    | ⟨2, _⟩ => rfl
  have er : ∀ k : Fin 256, ridx_main_v0 (ix3 b r j) k = ix2 j k := fun k => funext fun a => by
    match a with
    | ⟨0, _⟩ => rfl
    | ⟨1, _⟩ => rfl
  rw [val_main_v1_apply, val_main_v0_apply, val_main_call0_v0_apply, val_main_call0_cst_apply]
  show max (∑ k : Fin 256, x0 (lidx_main_v0 (ix3 b r j) k) * x3 (ridx_main_v0 (ix3 b r j) k))
      (Ideal.ofBits .f32 0x00000000#32)
    = max (∑ m : Fin 256, x0 (ix3 b r m) * x3 (ix2 j m)) (Ideal.ofBits .f32 0x00000000#32)
  refine congrArg (fun s => max s (Ideal.ofBits .f32 0x00000000#32)) (Finset.sum_congr rfl fun k _ => ?_)
  rw [el k, er k]

/-- The clipped key projection at (b, c, j). -/
theorem v3_at (b : Fin 4) (c : Fin 4096) (j : Fin 64) :
    val_main_v3 (F := Ideal) x1 x4 (ix3 b c j) = kp x1 x4 b c j := by
  have el : ∀ k : Fin 256, lidx_main_v2 (ix3 b c j) k = ix3 b c k := fun k => funext fun a => by
    match a with
    | ⟨0, _⟩ => rfl
    | ⟨1, _⟩ => rfl
    | ⟨2, _⟩ => rfl
  have er : ∀ k : Fin 256, ridx_main_v2 (ix3 b c j) k = ix2 j k := fun k => funext fun a => by
    match a with
    | ⟨0, _⟩ => rfl
    | ⟨1, _⟩ => rfl
  rw [val_main_v3_apply, val_main_v2_apply, val_main_call1_v0_apply, val_main_call1_cst_apply]
  show max (∑ k : Fin 256, x1 (lidx_main_v2 (ix3 b c j) k) * x4 (ridx_main_v2 (ix3 b c j) k))
      (Ideal.ofBits .f32 0x00000000#32)
    = max (∑ m : Fin 256, x1 (ix3 b c m) * x4 (ix2 j m)) (Ideal.ofBits .f32 0x00000000#32)
  refine congrArg (fun s => max s (Ideal.ofBits .f32 0x00000000#32)) (Finset.sum_congr rfl fun k _ => ?_)
  rw [el k, er k]

/-- The inner product of the two projected rows at (b, r, c). -/
theorem v4_at (b : Fin 4) (r c : Fin 4096) :
    val_main_v4 (F := Ideal) x0 x1 x3 x4 (ix3 b r c) = ∑ j : Fin 64, qp x0 x3 b r j * kp x1 x4 b c j := by
  have el : ∀ k : Fin 64, lidx_main_v4 (ix3 b r c) k = ix3 b r k := fun k => funext fun a => by
    match a with
    | ⟨0, _⟩ => rfl
    | ⟨1, _⟩ => rfl
    | ⟨2, _⟩ => rfl
  have er : ∀ k : Fin 64, ridx_main_v4 (ix3 b r c) k = ix3 b c k := fun k => funext fun a => by
    match a with
    | ⟨0, _⟩ => rfl
    | ⟨1, _⟩ => rfl
    | ⟨2, _⟩ => rfl
  rw [val_main_v4_apply]
  refine Finset.sum_congr rfl fun k _ => ?_
  rw [el k, er k, v1_at, v3_at]

/-- The scaled score at (b, r, c): dividing by the word of 8 is multiplying by the word of one eighth. -/
theorem v6_at (b : Fin 4) (r c : Fin 4096) :
    val_main_v6 (F := Ideal) x0 x1 x3 x4 (ix3 b r c)
      = (∑ j : Fin 64, qp x0 x3 b r j * kp x1 x4 b c j) * Cert.Spec.eighthW := by
  rw [val_main_v6_apply, val_main_v5_apply, val_main_cst_apply, v4_at]
  exact Cert.LibWords.div_eight _

/-- The masked score at (b, r, c). -/
theorem v9_at (b : Fin 4) (r c : Fin 4096) :
    val_main_v9 (F := Ideal) x0 x1 x3 x4 (ix3 b r c) = sc x0 x1 x3 x4 b r c := by
  rw [Cert.RefScatter.val_main_v9_apply, v6_at]
  rfl

/-- The row's largest masked score at (b, r). -/
theorem v12_at (b : Fin 4) (r : Fin 4096) :
    val_main_v12 (F := Ideal) x0 x1 x3 x4 (ix2 b r) = Cert.Spec.rowMax (sc x0 x1 x3 x4 b r) := by
  rw [Cert.RefRowMax.val_main_v12_rowMax]
  exact congrArg Cert.Spec.rowMax (funext fun c => v9_at x0 x1 x3 x4 b r c)

/-- The row's largest score, broadcast back along the keys. -/
theorem v14_at (b : Fin 4) (r c : Fin 4096) :
    val_main_v14 (F := Ideal) x0 x1 x3 x4 (ix3 b r c) = Cert.Spec.rowMax (sc x0 x1 x3 x4 b r) := by
  have e : idx_main_v13 (idx_main_v14 (ix3 b r c)) = ix2 b r := funext fun a => by
    match a with
    | ⟨0, _⟩ => rfl
    | ⟨1, _⟩ => rfl
  rw [val_main_v14_apply, val_main_v13_apply, e, v12_at]

/-- The unnormalised weight of key c in row (b, r). -/
theorem v16_at (b : Fin 4) (r c : Fin 4096) :
    val_main_v16 (F := Ideal) x0 x1 x3 x4 (ix3 b r c) = Cert.Spec.weight (sc x0 x1 x3 x4 b r) c := by
  rw [val_main_v16_apply, val_main_v15_apply, v9_at, v14_at]
  rfl

/-- The normaliser of row (b, r): the sum starts from the zero word, which adds nothing. -/
theorem v17_at (b : Fin 4) (r : Fin 4096) :
    val_main_v17 (F := Ideal) x0 x1 x3 x4 (ix2 b r) = Cert.Spec.norm (sc x0 x1 x3 x4 b r) := by
  have e : ∀ k : Fin 4096, idx_main_v17 (ix2 b r) k = ix3 b r k := fun k => funext fun a => by
    match a with
    | ⟨0, _⟩ => rfl
    | ⟨1, _⟩ => rfl
    | ⟨2, _⟩ => rfl
  rw [val_main_v17_apply, val_main_cst_3_apply]
  show Ideal.ofBits .f32 0x00000000#32 + _ = _
  rw [Cert.LibWords.ofBits_zero, zero_add]
  show _ = ∑ c : Fin 4096, Cert.Spec.weight (sc x0 x1 x3 x4 b r) c
  refine Finset.sum_congr rfl fun k _ => ?_
  rw [e k, v16_at]

/-- The normaliser, broadcast back along the keys. -/
theorem v19_at (b : Fin 4) (r c : Fin 4096) :
    val_main_v19 (F := Ideal) x0 x1 x3 x4 (ix3 b r c) = Cert.Spec.norm (sc x0 x1 x3 x4 b r) := by
  have e : idx_main_v18 (idx_main_v19 (ix3 b r c)) = ix2 b r := funext fun a => by
    match a with
    | ⟨0, _⟩ => rfl
    | ⟨1, _⟩ => rfl
  rw [val_main_v19_apply, val_main_v18_apply, e, v17_at]

/-- The normalised weight of key c in row (b, r). -/
theorem v20_at (b : Fin 4) (r c : Fin 4096) :
    val_main_v20 (F := Ideal) x0 x1 x3 x4 (ix3 b r c)
      = Ideal.div (Cert.Spec.weight (sc x0 x1 x3 x4 b r) c) (Cert.Spec.norm (sc x0 x1 x3 x4 b r)) := by
  rw [val_main_v20_apply, v16_at, v19_at]
  rfl

/-- The reference's result at an index is the specification at that index's coordinates. -/
theorem ref_eq_spec (i : S4x4096x64.Idx) :
    val_main_v21 (F := Ideal) x0 x1 x2 x3 x4 i
      = Cert.Spec.G (fun b r m => x0 (ix3 b r m)) (fun b r m => x1 (ix3 b r m)) (fun b r d => x2 (ix3 b r d))
          (fun j m => x3 (ix2 j m)) (fun j m => x4 (ix2 j m)) (i 0) (i 1) (i 2) := by
  obtain ⟨b, r, d, rfl⟩ : ∃ (b : Fin 4) (r : Fin 4096) (d : Fin 64), i = ix3 b r d := ⟨i 0, i 1, i 2, eq_ix3 i⟩
  have el : ∀ k : Fin 4096, lidx_main_v21 (ix3 b r d) k = ix3 b r k := fun k => funext fun a => by
    match a with
    | ⟨0, _⟩ => rfl
    | ⟨1, _⟩ => rfl
    | ⟨2, _⟩ => rfl
  have er : ∀ k : Fin 4096, ridx_main_v21 (ix3 b r d) k = ix3 b k d := fun k => funext fun a => by
    match a with
    | ⟨0, _⟩ => rfl
    | ⟨1, _⟩ => rfl
    | ⟨2, _⟩ => rfl
  rw [val_main_v21_apply]
  show _ = ∑ c : Fin 4096, Ideal.div (Cert.Spec.weight (sc x0 x1 x3 x4 b r) c) (Cert.Spec.norm (sc x0 x1 x3 x4 b r))
      * x2 (ix3 b c d)
  refine Finset.sum_congr rfl fun k _ => ?_
  rw [el k, er k, v20_at]

end Cert.RefValue

end
-- ==== Proof.lean ====
/-
  One attention layer with clipped linear projections, computed two ways, gives one result over the extended reals.

  Both programs take queries and keys of 256 entries per row, values of 64 entries per row, 4096 rows in each of
  four batches, and two weight tables of 64 rows. Queries and keys are projected onto the 64 weight rows and clipped
  at zero; the score of a query row against a key row is their inner product over the 64 projected coordinates,
  scaled by one eighth, with the score against key 0 overwritten by one large negative number; each row of scores is
  normalised by subtracting its maximum, exponentiating and dividing by the sum; and the result is the normalised
  scores applied to the values.

  The kernel walks a grid of four batches by eight tiles of 512 query rows. At the first tile of a batch it projects
  the batch's keys once and keeps them, with the batch's values, for the other seven tiles. The reference computes
  whole arrays. Where they differ in spelling the two agree at every extended real: the kernel multiplies by the word
  of one eighth where the reference divides by the word of eight, and the reference takes one more maximum against
  minus infinity, which changes nothing. No entry needs to be finite for that, so the precondition is not opened.

  The modules: Spec (the function, index by index), RefValue (the reference's result array is that function),
  Pieces and Carried (what the kernel's buffers hold after each grid point), BlockReads (blocks read off the whole
  arrays, and which rows each point covers), the Pay modules (the kernel body's arithmetic at an index) and
  KernelValue (the kernel's result array is that function).
-/
import proofs.«129011_j15599321219155_2_alg».proof.Defs
import proofs.«129011_j15599321219155_2_alg».proof.Proof.Gen.Kernel
import proofs.«129011_j15599321219155_2_alg».proof.Proof.Gen.Kernel.Skeleton
import proofs.«129011_j15599321219155_2_alg».proof.Proof.Gen.Kernel.Launch
import proofs.«129011_j15599321219155_2_alg».proof.Proof.Gen.Kernel.Points
import proofs.«129011_j15599321219155_2_alg».proof.Proof.Gen.Kernel.Frame
import proofs.«129011_j15599321219155_2_alg».proof.Proof.Gen.KernelIdeal
import proofs.«129011_j15599321219155_2_alg».proof.Proof.Gen.KernelIdeal.Skeleton
import proofs.«129011_j15599321219155_2_alg».proof.Proof.Gen.KernelIdeal.Launch
import proofs.«129011_j15599321219155_2_alg».proof.Proof.Gen.KernelIdeal.Points
import proofs.«129011_j15599321219155_2_alg».proof.Proof.Gen.KernelIdeal.Frame
import proofs.«129011_j15599321219155_2_alg».proof.Proof.Gen.ReferenceIdeal
import proofs.«129011_j15599321219155_2_alg».proof.Proof.Gen.Pre_finite_inputs
import proofs.«129011_j15599321219155_2_alg».proof.Proof.Gen.KernelIdeal.Value
import proofs.«129011_j15599321219155_2_alg».proof.Proof.Gen.ReferenceIdeal.Run
import proofs.«129011_j15599321219155_2_alg».proof.Proof.Gen.ReferenceIdeal.Read
import proofs.«129011_j15599321219155_2_alg».proof.Proof.KernelValue
import proofs.«129011_j15599321219155_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations, so there is nothing to preserve. -/
theorem preserves : Cert.preserves_Kernel_KernelIdeal := trivial

/-- From memories that agree on the five arguments, the kernel's result array and the reference's are the same
    function of those arguments, entry by entry. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2]
  funext i
  exact Cert.RefValue.ref_eq_spec _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
